-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x2 : Shape := ⟨2, ![1000000, 2]⟩
abbrev S32000000 : Shape := ⟨1, ![32000000]⟩
abbrev S2x1 : Shape := ⟨2, ![2, 1]⟩
abbrev S1 : Shape := ⟨1, ![1]⟩
abbrev S_ : Shape := ⟨0, ![]⟩

class Facts : Prop where
  bcast_S_S1000000x2 : S_.BroadcastsInDim S1000000x2 (![] : Fin 0 → Fin S1000000x2.rank)
  reducesTo_S1000000x2_S_d0_1 : S1000000x2.ReducesTo [0, 1] S_
  h_S_ : 0 < S_.numel
  bcast_S_S32000000 : S_.BroadcastsInDim S32000000 (![] : Fin 0 → Fin S32000000.rank)
  reducesTo_S32000000_S_d0 : S32000000.ReducesTo [0] S_
  bcast_S_S2x1 : S_.BroadcastsInDim S2x1 (![] : Fin 0 → Fin S2x1.rank)
  reducesTo_S2x1_S_d0_1 : S2x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S1000000x2 .f32) (main_arg1 : FVec F S32000000 .f32) (main_arg2 : IVec S32000000 32) (main_arg3 : IVec S32000000 32) (main_arg4 : FVec F S2x1 .f32) (main_arg5 : FVec F S1 .f32) : IVec S_ 1 :=
  let main_v0 : FVec F S1000000x2 .f32 := Host.absf main_arg0
  let main_cst : FVec F S_ .f32 := constant S_ .f32 0x7F800000#32
  let main_v1 : FVec F S1000000x2 .f32 := broadcastInDim S1000000x2 ![] bcast_S_S1000000x2 main_cst
  let main_v2 : IVec S1000000x2 1 := cmpf .olt main_v0 main_v1
  let main_c : IVec S_ 1 := constantI S_ 1 1#1
  let main_v3 : IVec S_ 1 := (fun x v => Host.reduce IntOp.andi x v reducesTo_S1000000x2_S_d0_1 h_S_) main_v2 main_c
  let main_v4 : FVec F S32000000 .f32 := Host.absf main_arg1
  let main_cst_0 : FVec F S_ .f32 := constant S_ .f32 0x7F800000#32
  let main_v5 : FVec F S32000000 .f32 := broadcastInDim S32000000 ![] bcast_S_S32000000 main_cst_0
  let main_v6 : IVec S32000000 1 := cmpf .olt main_v4 main_v5
  let main_c_1 : IVec S_ 1 := constantI S_ 1 1#1
  let main_v7 : IVec S_ 1 := (fun x v => Host.reduce IntOp.andi x v reducesTo_S32000000_S_d0 h_S_) main_v6 main_c_1
  let main_v8 : IVec S_ 1 := andi main_v3 main_v7
  let main_v9 : FVec F S2x1 .f32 := Host.absf main_arg4
  let main_cst_2 : FVec F S_ .f32 := constant S_ .f32 0x7F800000#32
  let main_v10 : FVec F S2x1 .f32 := broadcastInDim S2x1 ![] bcast_S_S2x1 main_cst_2
  let main_v11 : IVec S2x1 1 := cmpf .olt main_v9 main_v10
  let main_c_3 : IVec S_ 1 := constantI S_ 1 1#1
  let main_v12 : IVec S_ 1 := (fun x v => Host.reduce IntOp.andi x v reducesTo_S2x1_S_d0_1 h_S_) main_v11 main_c_3
  let main_v13 : IVec S_ 1 := andi main_v8 main_v12
  let main_v14 : FVec F S1 .f32 := Host.absf main_arg5
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S1000000x2 : Shape := ⟨2, ![1000000, 2]⟩
abbrev S32000000 : Shape := ⟨1, ![32000000]⟩
abbrev S2x1 : Shape := ⟨2, ![2, 1]⟩
abbrev S1 : Shape := ⟨1, ![1]⟩
abbrev S_ : Shape := ⟨0, ![]⟩
abbrev S1000000 : Shape := ⟨1, ![1000000]⟩
abbrev S32000000x1 : Shape := ⟨2, ![32000000, 1]⟩
abbrev S1000000x1 : Shape := ⟨2, ![1000000, 1]⟩
abbrev S1048576 : Shape := ⟨1, ![1048576]⟩
abbrev S8192x128 : Shape := ⟨2, ![8192, 128]⟩
abbrev S1024x128 : Shape := ⟨2, ![1024, 128]⟩
abbrev S1x1 : Shape := ⟨2, ![1, 1]⟩
abbrev S1x1000000 : Shape := ⟨2, ![1, 1000000]⟩

abbrev nBuf : Space → Nat
  | .hbm => 62
  | .vmem => 16
  | .smem => 0
  | _ => 0

abbrev bufTy : (tb : Table) → Fin (tcTables nBuf tb) → BufTy
  | .hbm, ⟨0, _⟩ => ⟨S1000000x2, .f32⟩
  | .hbm, ⟨1, _⟩ => ⟨S32000000, .f32⟩
  | .hbm, ⟨2, _⟩ => ⟨S32000000, .i32⟩
  | .hbm, ⟨3, _⟩ => ⟨S32000000, .i32⟩
  | .hbm, ⟨4, _⟩ => ⟨S2x1, .f32⟩
  | .hbm, ⟨5, _⟩ => ⟨S1, .f32⟩
  | .hbm, ⟨6, _⟩ => ⟨S_, .f32⟩
  | .hbm, ⟨7, _⟩ => ⟨S32000000, .f32⟩
  | .hbm, ⟨8, _⟩ => ⟨S_, .f32⟩
  | .hbm, ⟨9, _⟩ => ⟨S1000000, .f32⟩
  | .hbm, ⟨10, _⟩ => ⟨S32000000x1, .i32⟩
  | .hbm, ⟨11, _⟩ => ⟨S1000000, .f32⟩
  | .hbm, ⟨12, _⟩ => ⟨S_, .f32⟩
  | .hbm, ⟨13, _⟩ => ⟨S1000000, .f32⟩
  | .hbm, ⟨14, _⟩ => ⟨S32000000x1, .i32⟩
  | .hbm, ⟨15, _⟩ => ⟨S1000000, .f32⟩
  | .hbm, ⟨16, _⟩ => ⟨S1000000x1, .f32⟩
  | .hbm, ⟨17, _⟩ => ⟨S1000000, .f32⟩
  | .hbm, ⟨18, _⟩ => ⟨S_, .i32⟩
  | .hbm, ⟨19, _⟩ => ⟨S_, .f32⟩
  | .hbm, ⟨20, _⟩ => ⟨S1048576, .f32⟩
  | .hbm, ⟨21, _⟩ => ⟨S8192x128, .f32⟩
  | .hbm, ⟨22, _⟩ => ⟨S1000000x1, .f32⟩
  | .hbm, ⟨23, _⟩ => ⟨S1000000, .f32⟩
  | .hbm, ⟨24, _⟩ => ⟨S_, .i32⟩
  | .hbm, ⟨25, _⟩ => ⟨S_, .f32⟩
  | .hbm, ⟨26, _⟩ => ⟨S1048576, .f32⟩
  | .hbm, ⟨27, _⟩ => ⟨S8192x128, .f32⟩
  | .hbm, ⟨28, _⟩ => ⟨S_, .i32⟩
  | .hbm, ⟨29, _⟩ => ⟨S_, .f32⟩
  | .hbm, ⟨30, _⟩ => ⟨S1048576, .f32⟩
  | .hbm, ⟨31, _⟩ => ⟨S8192x128, .f32⟩
  | .hbm, ⟨32, _⟩ => ⟨S8192x128, .f32⟩
  | .hbm, ⟨33, _⟩ => ⟨S1048576, .f32⟩
  | .hbm, ⟨34, _⟩ => ⟨S1000000, .f32⟩
  | .hbm, ⟨35, _⟩ => ⟨S_, .i32⟩
  | .hbm, ⟨36, _⟩ => ⟨S32000000, .i32⟩
  | .hbm, ⟨37, _⟩ => ⟨S32000000, .i1⟩
  | .hbm, ⟨38, _⟩ => ⟨S_, .i32⟩
  | .hbm, ⟨39, _⟩ => ⟨S32000000, .i32⟩
  | .hbm, ⟨40, _⟩ => ⟨S32000000, .i32⟩
  | .hbm, ⟨41, _⟩ => ⟨S32000000, .i32⟩
  | .hbm, ⟨42, _⟩ => ⟨S32000000x1, .i32⟩
  | .hbm, ⟨43, _⟩ => ⟨S32000000, .f32⟩
  | .hbm, ⟨44, _⟩ => ⟨S32000000, .f32⟩
  | .hbm, ⟨45, _⟩ => ⟨S_, .f32⟩
  | .hbm, ⟨46, _⟩ => ⟨S1000000, .f32⟩
  | .hbm, ⟨47, _⟩ => ⟨S32000000x1, .i32⟩
  | .hbm, ⟨48, _⟩ => ⟨S1000000, .f32⟩
  | .hbm, ⟨49, _⟩ => ⟨S_, .i32⟩
  | .hbm, ⟨50, _⟩ => ⟨S_, .f32⟩
  | .hbm, ⟨51, _⟩ => ⟨S1048576, .f32⟩
  | .hbm, ⟨52, _⟩ => ⟨S8192x128, .f32⟩
  | .hbm, ⟨53, _⟩ => ⟨S_, .i32⟩
  | .hbm, ⟨54, _⟩ => ⟨S_, .f32⟩
  | .hbm, ⟨55, _⟩ => ⟨S1048576, .f32⟩
  | .hbm, ⟨56, _⟩ => ⟨S8192x128, .f32⟩
  | .hbm, ⟨57, _⟩ => ⟨S1x1, .f32⟩
  | .hbm, ⟨58, _⟩ => ⟨S8192x128, .f32⟩
  | .hbm, ⟨59, _⟩ => ⟨S1048576, .f32⟩
  | .hbm, ⟨60, _⟩ => ⟨S1000000, .f32⟩
  | .hbm, ⟨61, _⟩ => ⟨S1x1000000, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S2x1, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1x1, .f32⟩
  | .local _ .vmem, ⟨14, _⟩ => ⟨S1024x128, .f32⟩
  | .local _ .vmem, ⟨15, _⟩ => ⟨S1024x128, .f32⟩
  | _, _ => ⟨S1000000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_call0_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_call1_v0 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_call2_v0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_call3_v0 : Ref sig .tc := ⟨.hbm, 50, rfl⟩
abbrev main_v31 : Ref sig .tc := ⟨.hbm, 51, rfl⟩
abbrev main_v32 : Ref sig .tc := ⟨.hbm, 52, rfl⟩
abbrev main_c_8 : Ref sig .tc := ⟨.hbm, 53, rfl⟩
abbrev main_call4_v0 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S32000000 : S_.BroadcastsInDim S32000000 (![] : Fin 0 → Fin S32000000.rank)
  bcast_S_S1000000 : S_.BroadcastsInDim S1000000 (![] : Fin 0 → Fin S1000000.rank)
  bcast_S32000000_S32000000x1_0 : S32000000.BroadcastsInDim S32000000x1 (![0] : Fin 1 → Fin S32000000x1.rank)
  slices_S1000000x2_S1000000x1_0_0 : S1000000x2.Slices ![0, 0] S1000000x1
  shapeCasts_S1000000x1_S1000000 : S1000000x1.ShapeCasts S1000000
  pads_S1000000_S1048576_0485760 : S1000000.Pads (![0] : Fin 1 → Nat) ![48576] ![0] S1048576
  h_S_ : 0 < S_.numel
  shapeCasts_S1048576_S8192x128 : S1048576.ShapeCasts S8192x128
  slices_S1000000x2_S1000000x1_0_1 : S1000000x2.Slices ![0, 1] S1000000x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2x1_S2x1_0_0 : ∀ a, (![0, 0] : Fin 2 → Nat) a + S2x1.size a ≤ S2x1.size a
  h_S2x1 : 0 < S2x1.numel
  slices_S2x1_o0_0_S1x1 : S2x1.Slices ![0, 0] S1x1
  inpos_S1x1_p0_0 : ∀ a, (![0, 0] : Fin 2 → Nat) a < S1x1.size a
  slices_S2x1_o1_0_S1x1 : S2x1.Slices ![1, 0] S1x1
  shapeCasts_S8192x128_S1048576 : S8192x128.ShapeCasts S1048576
  slices_S1048576_S1000000_0 : S1048576.Slices ![0] S1000000
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1000000_S1x1000000 : S1000000.ShapeCasts S1x1000000
  scatter_S1000000_S32000000x1_S32000000_n_0_0_1_wf : ScatterDims.WF S1000000 S32000000x1 S32000000 [] [0] [0] 1
  gather_S1000000_S32000000x1_S32000000_n_0_n_n_0_1_1_wf : GatherDims.WF S1000000 S32000000x1 S32000000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x1.size a ≤ S2x1.size a
  hwx0_3 : ∀ i : grid0.Coords, EltTy.bits .f32 = 32 ∨ (Rect.block (s := S2x1) S2x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S8192x128.size a
  hwx0_4 : ∀ i : grid0.Coords, EltTy.bits .f32 = 32 ∨ (Rect.block (s := S8192x128) S1024x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .f32 = 32 ∨ (Rect.block (s := S8192x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .f32 = 32 ∨ (Rect.block (s := S8192x128) S1024x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S8192x128.size a
  hwx1_3 : ∀ i : grid1.Coords, EltTy.bits .f32 = 32 ∨ (Rect.block (s := S8192x128) S1024x128.size (cc1_transform_3 i) (hinb1_3 i)).WholeWords (EltTy.packing .f32)

variable [Facts₀]

def scatter_S1000000_S32000000x1_S32000000_n_0_0_1 : ScatterDims S1000000 S32000000x1 S32000000 where
  updateWindowDims := []
  insertedWindowDims := [0]
  scatterDimsToOperandDims := [0]
  indexVectorDim := 1
  wf := scatter_S1000000_S32000000x1_S32000000_n_0_0_1_wf
def gather_S1000000_S32000000x1_S32000000_n_0_n_n_0_1_1 : GatherDims S1000000 S32000000x1 S32000000 where
  offsetDims := []
  collapsedSliceDims := [0]
  operandBatchingDims := []
  startIndicesBatchingDims := []
  startIndexMap := [0]
  indexVectorDim := 1
  sliceSizes := ![1]
  wf := gather_S1000000_S32000000x1_S32000000_n_0_n_n_0_1_1_wf

abbrev win0_0 : Pipeline.Window sig grid0 :=
  Pipeline.Window.ofSpec (Memref.whole main_v10) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S2x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v32) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1000000x2 : Shape := ⟨2, ![1000000, 2]⟩
abbrev S32000000 : Shape := ⟨1, ![32000000]⟩
abbrev S2x1 : Shape := ⟨2, ![2, 1]⟩
abbrev S1 : Shape := ⟨1, ![1]⟩
abbrev S_ : Shape := ⟨0, ![]⟩
abbrev S1000000 : Shape := ⟨1, ![1000000]⟩
abbrev S32000000x1 : Shape := ⟨2, ![32000000, 1]⟩
abbrev S1000000x1 : Shape := ⟨2, ![1000000, 1]⟩
abbrev S1x1 : Shape := ⟨2, ![1, 1]⟩
abbrev S1x1000000 : Shape := ⟨2, ![1, 1000000]⟩

abbrev nBuf : Space → Nat
  | .hbm => 51
  | .vmem => 0
  | .smem => 0
  | _ => 0

abbrev bufTy : (tb : Table) → Fin (tcTables nBuf tb) → BufTy
  | .hbm, ⟨0, _⟩ => ⟨S1000000x2, .f32⟩
  | .hbm, ⟨1, _⟩ => ⟨S32000000, .f32⟩
  | .hbm, ⟨2, _⟩ => ⟨S32000000, .i32⟩
  | .hbm, ⟨3, _⟩ => ⟨S32000000, .i32⟩
  | .hbm, ⟨4, _⟩ => ⟨S2x1, .f32⟩
  | .hbm, ⟨5, _⟩ => ⟨S1, .f32⟩
  | .hbm, ⟨6, _⟩ => ⟨S_, .f32⟩
  | .hbm, ⟨7, _⟩ => ⟨S32000000, .f32⟩
  | .hbm, ⟨8, _⟩ => ⟨S_, .f32⟩
  | .hbm, ⟨9, _⟩ => ⟨S1000000, .f32⟩
  | .hbm, ⟨10, _⟩ => ⟨S32000000x1, .i32⟩
  | .hbm, ⟨11, _⟩ => ⟨S1000000, .f32⟩
  | .hbm, ⟨12, _⟩ => ⟨S_, .f32⟩
  | .hbm, ⟨13, _⟩ => ⟨S1000000, .f32⟩
  | .hbm, ⟨14, _⟩ => ⟨S32000000x1, .i32⟩
  | .hbm, ⟨15, _⟩ => ⟨S1000000, .f32⟩
  | .hbm, ⟨16, _⟩ => ⟨S_, .f32⟩
  | .hbm, ⟨17, _⟩ => ⟨S_, .f32⟩
  | .hbm, ⟨18, _⟩ => ⟨S1000000, .f32⟩
  | .hbm, ⟨19, _⟩ => ⟨S1000000, .f32⟩
  | .hbm, ⟨20, _⟩ => ⟨S1000000, .f32⟩
  | .hbm, ⟨21, _⟩ => ⟨S_, .f32⟩
  | .hbm, ⟨22, _⟩ => ⟨S_, .f32⟩
  | .hbm, ⟨23, _⟩ => ⟨S1000000, .f32⟩
  | .hbm, ⟨24, _⟩ => ⟨S1000000, .f32⟩
  | .hbm, ⟨25, _⟩ => ⟨S1000000, .f32⟩
  | .hbm, ⟨26, _⟩ => ⟨S1000000x1, .f32⟩
  | .hbm, ⟨27, _⟩ => ⟨S1000000x2, .f32⟩
  | .hbm, ⟨28, _⟩ => ⟨S1000000x2, .f32⟩
  | .hbm, ⟨29, _⟩ => ⟨S1000000x1, .f32⟩
  | .hbm, ⟨30, _⟩ => ⟨S_, .i32⟩
  | .hbm, ⟨31, _⟩ => ⟨S32000000, .i32⟩
  | .hbm, ⟨32, _⟩ => ⟨S32000000, .i1⟩
  | .hbm, ⟨33, _⟩ => ⟨S_, .i32⟩
  | .hbm, ⟨34, _⟩ => ⟨S32000000, .i32⟩
  | .hbm, ⟨35, _⟩ => ⟨S32000000, .i32⟩
  | .hbm, ⟨36, _⟩ => ⟨S32000000, .i32⟩
  | .hbm, ⟨37, _⟩ => ⟨S32000000x1, .i32⟩
  | .hbm, ⟨38, _⟩ => ⟨S32000000x1, .f32⟩
  | .hbm, ⟨39, _⟩ => ⟨S32000000x1, .f32⟩
  | .hbm, ⟨40, _⟩ => ⟨S32000000x1, .f32⟩
  | .hbm, ⟨41, _⟩ => ⟨S_, .f32⟩
  | .hbm, ⟨42, _⟩ => ⟨S1000000x1, .f32⟩
  | .hbm, ⟨43, _⟩ => ⟨S32000000x1, .i32⟩
  | .hbm, ⟨44, _⟩ => ⟨S1000000x1, .f32⟩
  | .hbm, ⟨45, _⟩ => ⟨S1000000x1, .f32⟩
  | .hbm, ⟨46, _⟩ => ⟨S1000000x1, .f32⟩
  | .hbm, ⟨47, _⟩ => ⟨S1x1, .f32⟩
  | .hbm, ⟨48, _⟩ => ⟨S1000000x1, .f32⟩
  | .hbm, ⟨49, _⟩ => ⟨S1000000x1, .f32⟩
  | .hbm, ⟨50, _⟩ => ⟨S1x1000000, .f32⟩
  | _, _ => ⟨S1000000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]

class Facts₀ : Prop where
  bcast_S_S32000000 : S_.BroadcastsInDim S32000000 (![] : Fin 0 → Fin S32000000.rank)
  bcast_S_S1000000 : S_.BroadcastsInDim S1000000 (![] : Fin 0 → Fin S1000000.rank)
  bcast_S32000000_S32000000x1_0 : S32000000.BroadcastsInDim S32000000x1 (![0] : Fin 1 → Fin S32000000x1.rank)
  bcast_S1000000_S1000000x1_0 : S1000000.BroadcastsInDim S1000000x1 (![0] : Fin 1 → Fin S1000000x1.rank)
  bcast_S1000000x1_S1000000x2_0_1 : S1000000x1.BroadcastsInDim S1000000x2 (![0, 1] : Fin 2 → Fin S1000000x2.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  transposes_S1000000x1_S1x1000000_1_0 : S1000000x1.Transposes [1, 0] S1x1000000
  scatter_S1000000_S32000000x1_S32000000_n_0_0_1_wf : ScatterDims.WF S1000000 S32000000x1 S32000000 [] [0] [0] 1
  dot_S1000000x2_S2x1_S1000000x1_1_0_0_1_n_n_wf : DotDims.WF S1000000x2 S2x1 S1000000x1 [1] [0] [0] [1] [] []
  gather_S1000000x1_S32000000x1_S32000000x1_1_0_n_n_0_1_11_wf : GatherDims.WF S1000000x1 S32000000x1 S32000000x1 [1] [0] [] [0] [] 1 ![1, 1]
  scatter_S1000000x1_S32000000x1_S32000000x1_1_0_0_1_wf : ScatterDims.WF S1000000x1 S32000000x1 S32000000x1 [1] [0] [0] 1

variable [Facts₀]

def scatter_S1000000_S32000000x1_S32000000_n_0_0_1 : ScatterDims S1000000 S32000000x1 S32000000 where
  updateWindowDims := []
  insertedWindowDims := [0]
  scatterDimsToOperandDims := [0]
  indexVectorDim := 1
  wf := scatter_S1000000_S32000000x1_S32000000_n_0_0_1_wf
def dot_S1000000x2_S2x1_S1000000x1_1_0_0_1_n_n : DotDims S1000000x2 S2x1 S1000000x1 where
  lhsContracting := [1]
  rhsContracting := [0]
  lhsNonContracting := [0]
  rhsNonContracting := [1]
  lhsBatch := []
  rhsBatch := []
  wf := dot_S1000000x2_S2x1_S1000000x1_1_0_0_1_n_n_wf
def gather_S1000000x1_S32000000x1_S32000000x1_1_0_n_n_0_1_11 : GatherDims S1000000x1 S32000000x1 S32000000x1 where
  offsetDims := [1]
  collapsedSliceDims := [0]
  operandBatchingDims := []
  startIndicesBatchingDims := []
  startIndexMap := [0]
  indexVectorDim := 1
  sliceSizes := ![1, 1]
  wf := gather_S1000000x1_S32000000x1_S32000000x1_1_0_n_n_0_1_11_wf
def scatter_S1000000x1_S32000000x1_S32000000x1_1_0_0_1 : ScatterDims S1000000x1 S32000000x1 S32000000x1 where
  updateWindowDims := [1]
  insertedWindowDims := [0]
  scatterDimsToOperandDims := [0]
  indexVectorDim := 1
  wf := scatter_S1000000x1_S32000000x1_S32000000x1_1_0_0_1_wf

class Facts : Prop extends Facts₀ where

variable [Facts]
-- ==== Proof.KernelRun.lean ====
/-
  The kernel program's run with its result named. The program is a chain of stretches of host operations and two
  kernel regions; the buffer contents at each boundary of the chain are a fold from the launch memory, and the last
  of them, `W15`, is what every unscoped buffer holds when the program returns. So every weakly fair execution
  terminates without a fault with the result buffer at `W15`'s contents there, and the six argument arrays as launched.
-/
import proofs.«136766_j52106543235761_2_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the last
    boundary's contents and the arguments as launched. -/
theorem run : θ_run defs (onTc (τ := τ) (main (F := F))) ⟨m, fun _ => 0, ρ⟩ (fun r => ∀ c : Dev nD,
      r.2.mem ((c.tc : Thread nD τ).loc main_v39) = W15 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v39 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c)⟩)

end Cert.KernelIdeal.ValueRun

end
-- ==== Proof.Region0.lean ====
/-
  The first kernel region, per node: with the node's coordinates (x, y), its out-degree d and the 2×1 weight (w₀, w₁),
  the region writes  (x · rsqrt(max(d, 1))) · w₀ + (y · rsqrt(max(d, 1))) · w₁.
  The three per-node arrays are laid out as 8192 × 128 tiles and the grid has eight points, point t owning rows
  1024·t … 1024·t + 1023 of every tile array (the weight is read whole at every point). The body is pointwise, so what
  point t writes back is block t of ONE function of the region's four input arrays; the eight row blocks cover the
  whole 8192 × 128 output, hence the output array ends holding that function everywhere.
-/
import proofs.«136766_j52106543235761_2_alg».proof.Proof.Gen.KernelIdeal.Frame
import Idealize.ShloMosaic.Lib.Pipeline.Value
import Idealize.ShloMosaic.Lib.ValueIdx

set_option maxRecDepth 16384

noncomputable section

namespace Cert.KernelIdeal.NodeProj

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem zero_off : (![0, 0] : Fin 2 → Nat) = fun _ => 0 := funext fun a => by fin_cases a <;> rfl

/-- The projected, source-normalised feature of the node at tile position `i`. -/
def proj (px py deg : FVec Ideal S8192x128 .f32) (w : FVec Ideal S2x1 .f32) : FVec Ideal S8192x128 .f32 := fun i =>
  px i * Ideal.rsqrt (max (deg i) (Ideal.ofBits .f32 0x3F800000#32)) * w (ix2 0 0)
    + py i * Ideal.rsqrt (max (deg i) (Ideal.ofBits .f32 0x3F800000#32)) * w (ix2 1 0)

/-- The body's stored value at a position of the block: the same expression of the loaded blocks there. -/
theorem pay_apply (d : FVec Ideal S1024x128 .f32) (w : FVec Ideal S2x1 .f32) (px py : FVec Ideal S1024x128 .f32)
    (j : S1024x128.Idx) :
    k0_pay1 (F := Ideal) d w px py j
      = px j * Ideal.rsqrt (max (d j) (Ideal.ofBits .f32 0x3F800000#32)) * w (ix2 0 0)
        + py j * Ideal.rsqrt (max (d j) (Ideal.ofBits .f32 0x3F800000#32)) * w (ix2 1 0) := by
  unfold k0_pay1
  simp only [shapeCast_self]
  have e0 : extractAt ![0, 0] (extractStridedSlice S1x1 ![0, 0] w slices_S2x1_o0_0_S1x1) inpos_S1x1_p0_0 = w (ix2 0 0) := by
    unfold extractAt extractStridedSlice
    refine congrArg w (funext fun a => Fin.ext ?_)
    match a with
    | ⟨0, _⟩ => rfl
    | ⟨1, _⟩ => rfl
  have e1 : extractAt ![0, 0] (extractStridedSlice S1x1 ![1, 0] w slices_S2x1_o1_0_S1x1) inpos_S1x1_p0_0 = w (ix2 1 0) := by
    unfold extractAt extractStridedSlice
    refine congrArg w (funext fun a => Fin.ext ?_)
    match a with
    | ⟨0, _⟩ => rfl
    | ⟨1, _⟩ => rfl
  rw [e0, e1]
  rfl

/-- The expression read at positions that are equal to `i` (and the weight at its two entries) is `proj` at `i`. -/
theorem proj_congr (px py deg : FVec Ideal S8192x128 .f32) (w : FVec Ideal S2x1 .f32)
    (i0 i1 i2 i : S8192x128.Idx) (k0 k1 : S2x1.Idx) (h0 : i0 = i) (h1 : i1 = i) (h2 : i2 = i)
    (hk0 : k0 = ix2 0 0) (hk1 : k1 = ix2 1 0) :
    px i0 * Ideal.rsqrt (max (deg i2) (Ideal.ofBits .f32 0x3F800000#32)) * w k0
        + py i1 * Ideal.rsqrt (max (deg i2) (Ideal.ofBits .f32 0x3F800000#32)) * w k1
      = proj px py deg w i := by
  subst h0 h1 h2 hk0 hk1; rfl

/-- The grid's index maps, decided once over the eight points: the three tiled inputs move with the output, the
    weight stays at its one block, and the output's block row is the point's number. -/
theorem idx_facts : ∀ t : Fin cfg0.N, win0_0.index t (0 : Fin 2) = win0_4.index t (0 : Fin 2)
    ∧ win0_0.index t (1 : Fin 2) = win0_4.index t (1 : Fin 2)
    ∧ win0_1.index t (0 : Fin 2) = win0_4.index t (0 : Fin 2)
    ∧ win0_1.index t (1 : Fin 2) = win0_4.index t (1 : Fin 2)
    ∧ win0_2.index t (0 : Fin 2) = win0_4.index t (0 : Fin 2)
    ∧ win0_2.index t (1 : Fin 2) = win0_4.index t (1 : Fin 2)
    ∧ win0_3.index t (0 : Fin 2) = 0 ∧ win0_3.index t (1 : Fin 2) = 0
    ∧ win0_4.index t (0 : Fin 2) ≤ 7 ∧ win0_4.index t (1 : Fin 2) = 0 :=
  (by decide +kernel : ∀ t : Fin grid0.N, _)

/-- Every block row is some point's. -/
theorem idx_onto : ∀ q : Fin 8, ∃ t : Fin cfg0.N, win0_4.index t = ![q.val, 0] :=
  (by decide +kernel : ∀ q : Fin 8, ∃ t : Fin grid0.N, win0_4.index t = ![q.val, 0])

/-- What point `t` writes back is block `t` of `proj` of the region's input arrays. -/
theorem flushed_eq (c : Dev nD) (t : Fin cfg0.N) :
    (dat0 V c).flushed 4 t = ((cfg0.win 4).blk t).view.read (Elt Ideal)
      (proj (V c main_v10) (V c main_v14) (V c main_v16) (V c main_arg4)) := by
  show (cfg0.win 4).cut (grid0.coords t) ((dat0 V c).after 4 t) = _
  rw [after0_4]
  unfold out0_4
  rw [View.canon_unit_zero zero_off]
  simp only [View.ld_unit_zero (S := S1024x128) zero_off, View.ld_unit_zero (S := S2x1) zero_off]
  obtain ⟨e0, e1, e2, e3, e4, e5, e6, e7, e8, e9⟩ := idx_facts t
  funext j
  refine Eq.trans (pay_apply (iblk0 V c 2 t) (iblk0 V c 3 t) (iblk0 V c 0 t) (iblk0 V c 1 t) j) ?_
  have h0 : ((cfg0.win 0).blk t).view.emb j = ((cfg0.win 4).blk t).view.emb j := by
    funext a; apply Fin.ext
    match a with
    | ⟨0, _⟩ => show win0_0.index t (0 : Fin 2) * 1024 + 1 * (j 0).val = win0_4.index t (0 : Fin 2) * 1024 + 1 * (j 0).val; omega
    | ⟨1, _⟩ => show win0_0.index t (1 : Fin 2) * 128 + 1 * (j 1).val = win0_4.index t (1 : Fin 2) * 128 + 1 * (j 1).val; omega
  have h1 : ((cfg0.win 1).blk t).view.emb j = ((cfg0.win 4).blk t).view.emb j := by
    funext a; apply Fin.ext
    match a with
    | ⟨0, _⟩ => show win0_1.index t (0 : Fin 2) * 1024 + 1 * (j 0).val = win0_4.index t (0 : Fin 2) * 1024 + 1 * (j 0).val; omega
    | ⟨1, _⟩ => show win0_1.index t (1 : Fin 2) * 128 + 1 * (j 1).val = win0_4.index t (1 : Fin 2) * 128 + 1 * (j 1).val; omega
  have h2 : ((cfg0.win 2).blk t).view.emb j = ((cfg0.win 4).blk t).view.emb j := by
    funext a; apply Fin.ext
    match a with
    | ⟨0, _⟩ => show win0_2.index t (0 : Fin 2) * 1024 + 1 * (j 0).val = win0_4.index t (0 : Fin 2) * 1024 + 1 * (j 0).val; omega
    | ⟨1, _⟩ => show win0_2.index t (1 : Fin 2) * 128 + 1 * (j 1).val = win0_4.index t (1 : Fin 2) * 128 + 1 * (j 1).val; omega
  have h30 : ((cfg0.win 3).blk t).view.emb (ix2 0 0) = ix2 0 0 := by
    funext a; apply Fin.ext
    match a with
    | ⟨0, _⟩ => show win0_3.index t (0 : Fin 2) * 2 + 1 * 0 = 0; omega
    | ⟨1, _⟩ => show win0_3.index t (1 : Fin 2) * 1 + 1 * 0 = 0; omega
  have h31 : ((cfg0.win 3).blk t).view.emb (ix2 1 0) = ix2 1 0 := by
    funext a; apply Fin.ext
    match a with
    | ⟨0, _⟩ => show win0_3.index t (0 : Fin 2) * 2 + 1 * 1 = 1; omega
    | ⟨1, _⟩ => show win0_3.index t (1 : Fin 2) * 1 + 1 * 0 = 0; omega
  exact proj_congr (V c main_v10) (V c main_v14) (V c main_v16) (V c main_arg4)
    (((cfg0.win 0).blk t).view.emb j) (((cfg0.win 1).blk t).view.emb j) (((cfg0.win 2).blk t).view.emb j)
    (((cfg0.win 4).blk t).view.emb j) (((cfg0.win 3).blk t).view.emb (ix2 0 0)) (((cfg0.win 3).blk t).view.emb (ix2 1 0))
    h0 h1 h2 h30 h31

/-- An index of the output array is in point `t`'s block iff each coordinate is in the block's range on its axis. -/
theorem mem_blk (t : Fin cfg0.N) (i : S8192x128.Idx) :
    i ∈ ((cfg0.win 4).blk t).view.set ↔ ∀ a : Fin 2, win0_4.index t a * S1024x128.size a ≤ (i a).val ∧ (i a).val < win0_4.index t a * S1024x128.size a + S1024x128.size a := by
  show i ∈ ((View.whole main_v17).slice (win0_4.rect t)).set ↔ _
  rw [View.set_slice_whole, Rect.mem_set_unit]
  exact Iff.rfl

/-- The eight row blocks cover the array: row `r` is in the block of the point whose block row is `r / 1024`. -/
theorem cover (i : S8192x128.Idx) :
    ∃ t : Fin cfg0.N, (cfg0.win 4).flush t = true ∧ i ∈ ((cfg0.win 4).blk t).view.set := by
  have hi0 : (i 0).val < 8192 := (i 0).isLt
  have hi1 : (i 1).val < 128 := (i 1).isLt
  obtain ⟨t, ht⟩ := idx_onto ⟨(i 0).val / 1024, by omega⟩
  have q0 : win0_4.index t (0 : Fin 2) = (i 0).val / 1024 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 128 ≤ (i 1).val ∧ (i 1).val < win0_4.index t (1 : Fin 2) * 128 + 128; omega

/-- The region's output array after its eight write-backs. -/
theorem final (c : Dev nD) :
    (dat0 V c).arrAt 4 cfg0.N = proj (V c main_v10) (V c main_v14) (V c main_v16) (V c main_arg4) :=
  (dat0 V c).arrAt_eq_of_cover 4 _ (fun t _ => flushed_eq V c t) cover

end Cert.KernelIdeal.NodeProj

end
-- ==== Proof.Region1.lean ====
/-
  The second kernel region, per node: with the node's aggregated message a, its in-degree d and the bias b, the
  region writes  a · rsqrt(max(d, 1)) + b.
  The two per-node arrays are laid out as 8192 × 128 tiles, the bias is a 1 × 1 array read whole at every point, and
  point t of the eight-point grid owns rows 1024·t … 1024·t + 1023. The body is pointwise, so what point t writes back
  is block t of ONE function of the region's three input arrays, and the eight row blocks cover the whole output.
-/
import proofs.«136766_j52106543235761_2_alg».proof.Proof.Gen.KernelIdeal.Frame
import Idealize.ShloMosaic.Lib.Pipeline.Value
import Idealize.ShloMosaic.Lib.ValueIdx

set_option maxRecDepth 16384

noncomputable section

namespace Cert.KernelIdeal.Finalize

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem zero_off : (![0, 0] : Fin 2 → Nat) = fun _ => 0 := funext fun a => by fin_cases a <;> rfl

/-- The destination-normalised aggregate plus the bias, for the node at tile position `i`. -/
def fin (agg deg : FVec Ideal S8192x128 .f32) (b : FVec Ideal S1x1 .f32) : FVec Ideal S8192x128 .f32 := fun i =>
  agg i * Ideal.rsqrt (max (deg i) (Ideal.ofBits .f32 0x3F800000#32)) + b (ix2 0 0)

/-- The body's stored value at a position of the block: the same expression of the loaded blocks there. -/
theorem pay_apply (d : FVec Ideal S1024x128 .f32) (b : FVec Ideal S1x1 .f32) (a : FVec Ideal S1024x128 .f32)
    (j : S1024x128.Idx) :
    k1_pay1 (F := Ideal) d b a j
      = a j * Ideal.rsqrt (max (d j) (Ideal.ofBits .f32 0x3F800000#32)) + b (ix2 0 0) := by
  unfold k1_pay1
  simp only [shapeCast_self]
  have e0 : extractAt ![0, 0] b inpos_S1x1_p0_0 = b (ix2 0 0) := by
    unfold extractAt
    refine congrArg b (funext fun a => Fin.ext ?_)
    match a with
    | ⟨0, _⟩ => rfl
    | ⟨1, _⟩ => rfl
  rw [e0]
  rfl

/-- The expression read at positions that are equal to `i` (and the bias at its one entry) is `fin` at `i`. -/
theorem fin_congr (agg deg : FVec Ideal S8192x128 .f32) (b : FVec Ideal S1x1 .f32)
    (i0 i1 i : S8192x128.Idx) (k0 : S1x1.Idx) (h0 : i0 = i) (h1 : i1 = i) (hk0 : k0 = ix2 0 0) :
    agg i0 * Ideal.rsqrt (max (deg i1) (Ideal.ofBits .f32 0x3F800000#32)) + b k0 = fin agg deg b i := by
  subst h0 h1 hk0; rfl

/-- The grid's index maps, decided once over the eight points. -/
theorem idx_facts : ∀ t : Fin cfg1.N, win1_0.index t (0 : Fin 2) = win1_3.index t (0 : Fin 2)
    ∧ win1_0.index t (1 : Fin 2) = win1_3.index t (1 : Fin 2)
    ∧ win1_1.index t (0 : Fin 2) = win1_3.index t (0 : Fin 2)
    ∧ win1_1.index t (1 : Fin 2) = win1_3.index t (1 : Fin 2)
    ∧ win1_2.index t (0 : Fin 2) = 0 ∧ win1_2.index t (1 : Fin 2) = 0
    ∧ win1_3.index t (0 : Fin 2) ≤ 7 ∧ win1_3.index t (1 : Fin 2) = 0 :=
  (by decide +kernel : ∀ t : Fin grid1.N, _)

/-- Every block row is some point's. -/
theorem idx_onto : ∀ q : Fin 8, ∃ t : Fin cfg1.N, win1_3.index t = ![q.val, 0] :=
  (by decide +kernel : ∀ q : Fin 8, ∃ t : Fin grid1.N, win1_3.index t = ![q.val, 0])

/-- What point `t` writes back is block `t` of `fin` of the region's input arrays. -/
theorem flushed_eq (c : Dev nD) (t : Fin cfg1.N) :
    (dat1 V c).flushed 3 t = ((cfg1.win 3).blk t).view.read (Elt Ideal)
      (fin (V c main_v32) (V c main_v34) (V c main_v35)) := by
  show (cfg1.win 3).cut (grid1.coords t) ((dat1 V c).after 3 t) = _
  rw [after1_3]
  unfold out1_3
  rw [View.canon_unit_zero zero_off]
  simp only [View.ld_unit_zero (S := S1024x128) zero_off, View.ld_unit_zero (S := S1x1) zero_off]
  obtain ⟨e0, e1, e2, e3, e4, e5, e6, e7⟩ := idx_facts t
  funext j
  refine Eq.trans (pay_apply (iblk1 V c 1 t) (iblk1 V c 2 t) (iblk1 V c 0 t) j) ?_
  have h0 : ((cfg1.win 0).blk t).view.emb j = ((cfg1.win 3).blk t).view.emb j := by
    funext a; apply Fin.ext
    match a with
    | ⟨0, _⟩ => show win1_0.index t (0 : Fin 2) * 1024 + 1 * (j 0).val = win1_3.index t (0 : Fin 2) * 1024 + 1 * (j 0).val; omega
    | ⟨1, _⟩ => show win1_0.index t (1 : Fin 2) * 128 + 1 * (j 1).val = win1_3.index t (1 : Fin 2) * 128 + 1 * (j 1).val; omega
  have h1 : ((cfg1.win 1).blk t).view.emb j = ((cfg1.win 3).blk t).view.emb j := by
    funext a; apply Fin.ext
    match a with
    | ⟨0, _⟩ => show win1_1.index t (0 : Fin 2) * 1024 + 1 * (j 0).val = win1_3.index t (0 : Fin 2) * 1024 + 1 * (j 0).val; omega
    | ⟨1, _⟩ => show win1_1.index t (1 : Fin 2) * 128 + 1 * (j 1).val = win1_3.index t (1 : Fin 2) * 128 + 1 * (j 1).val; omega
  have h2 : ((cfg1.win 2).blk t).view.emb (ix2 0 0) = ix2 0 0 := by
    funext a; apply Fin.ext
    match a with
    | ⟨0, _⟩ => show win1_2.index t (0 : Fin 2) * 1 + 1 * 0 = 0; omega
    | ⟨1, _⟩ => show win1_2.index t (1 : Fin 2) * 1 + 1 * 0 = 0; omega
  exact fin_congr (V c main_v32) (V c main_v34) (V c main_v35)
    (((cfg1.win 0).blk t).view.emb j) (((cfg1.win 1).blk t).view.emb j) (((cfg1.win 3).blk t).view.emb j)
    (((cfg1.win 2).blk t).view.emb (ix2 0 0)) h0 h1 h2

/-- An index of the output array is in point `t`'s block iff each coordinate is in the block's range on its axis. -/
theorem mem_blk (t : Fin cfg1.N) (i : S8192x128.Idx) :
    i ∈ ((cfg1.win 3).blk t).view.set ↔ ∀ a : Fin 2, win1_3.index t a * S1024x128.size a ≤ (i a).val ∧ (i a).val < win1_3.index t a * S1024x128.size a + S1024x128.size a := by
  show i ∈ ((View.whole main_v36).slice (win1_3.rect t)).set ↔ _
  rw [View.set_slice_whole, Rect.mem_set_unit]
  exact Iff.rfl

/-- The eight row blocks cover the array: row `r` is in the block of the point whose block row is `r / 1024`. -/
theorem cover (i : S8192x128.Idx) :
    ∃ t : Fin cfg1.N, (cfg1.win 3).flush t = true ∧ i ∈ ((cfg1.win 3).blk t).view.set := by
  have hi0 : (i 0).val < 8192 := (i 0).isLt
  have hi1 : (i 1).val < 128 := (i 1).isLt
  obtain ⟨t, ht⟩ := idx_onto ⟨(i 0).val / 1024, by omega⟩
  have q0 : win1_3.index t (0 : Fin 2) = (i 0).val / 1024 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 128 ≤ (i 1).val ∧ (i 1).val < win1_3.index t (1 : Fin 2) * 128 + 128; omega

/-- The region's output array after its eight write-backs. -/
theorem final (c : Dev nD) :
    (dat1 V c).arrAt 3 cfg1.N = fin (V c main_v32) (V c main_v34) (V c main_v35) :=
  (dat1 V c).arrAt_eq_of_cover 3 _ (fun t _ => flushed_eq V c t) cover

end Cert.KernelIdeal.Finalize

end
-- ==== Proof.KernelTerms.lean ====
/-
  The kernel program's host-side arrangement, as named terms of its six argument arrays.
  A per-node vector of 1,000,000 entries is padded with zeros to 1,048,576 = 8192 · 128 entries and laid out as an
  8192 × 128 tile array (`tile`); a tile array is flattened and cut back to its first 1,000,000 entries (`untile`).
  The node coordinates are the two columns of the position array; a degree array is the scatter-add of ones at an
  index array; the edge source indices are wrapped once (a negative index has the node count added) before the gather.
  `result` is the whole program's value: the first region's projection on tiles, gathered at the sources, weighted,
  summed at the destinations, the second region's normalisation on tiles, cut back and shaped as a row.
-/
import proofs.«136766_j52106543235761_2_alg».proof.Proof.Region0
import proofs.«136766_j52106543235761_2_alg».proof.Proof.Region1

noncomputable section

namespace Cert.KernelIdeal.Terms

open Idealize.ShloMosaic Idealize.ShloMosaic.TcCoe Idealize.ShloMosaic.ValueIdx Idealize.SL.Sem
open Cert.KernelIdeal Cert.KernelIdeal.Gen

/-- A per-node vector padded with the padding value `0` and laid out as tiles. -/
def tile (x : FVec Ideal S1000000 .f32) : FVec Ideal S8192x128 .f32 :=
  shapeCast S8192x128 (pad S1048576 ![0] ![48576] ![0] x (sitofp (F := Ideal) .f32 (constantI S_ 32 0#32))
    pads_S1000000_S1048576_0485760 h_S_) shapeCasts_S1048576_S8192x128

/-- A tile array flattened and cut back to the nodes. -/
def untile (y : FVec Ideal S8192x128 .f32) : FVec Ideal S1000000 .f32 :=
  extractStridedSlice S1000000 ![0] (shapeCast S1048576 y shapeCasts_S8192x128_S1048576) slices_S1048576_S1000000_0

/-- The first and the second column of the position array, as vectors. -/
def col0 (X : FVec Ideal S1000000x2 .f32) : FVec Ideal S1000000 .f32 :=
  shapeCast S1000000 (extractStridedSlice S1000000x1 ![0, 0] X slices_S1000000x2_S1000000x1_0_0) shapeCasts_S1000000x1_S1000000
def col1 (X : FVec Ideal S1000000x2 .f32) : FVec Ideal S1000000 .f32 :=
  shapeCast S1000000 (extractStridedSlice S1000000x1 ![0, 1] X slices_S1000000x2_S1000000x1_0_1) shapeCasts_S1000000x1_S1000000

/-- An index vector as the one-column index array a gather or scatter takes. -/
def asCol (idx : IVec S32000000 32) : IVec S32000000x1 32 :=
  broadcastInDim S32000000x1 ![0] bcast_S32000000_S32000000x1_0 idx

def zerosN : FVec Ideal S1000000 .f32 :=
  broadcastInDim S1000000 ![] bcast_S_S1000000 (constant (F := Ideal) S_ .f32 0x00000000#32)
def onesE : FVec Ideal S32000000 .f32 :=
  broadcastInDim S32000000 ![] bcast_S_S32000000 (constant (F := Ideal) S_ .f32 0x3F800000#32)

/-- The degree array of an index array: ones summed at the indices. -/
def degree (idx : IVec S32000000 32) : FVec Ideal S1000000 .f32 :=
  Host.scatterAdd (F := Ideal) scatter_S1000000_S32000000x1_S32000000_n_0_0_1 zerosN (asCol idx) onesE

/-- The source indices with a negative index wrapped once around the node count. -/
def wrapped (src : IVec S32000000 32) : IVec S32000000 32 :=
  select (cmpi .slt src (broadcastInDim S32000000 ![] bcast_S_S32000000 (constantI S_ 32 0#32)))
    (addi src (broadcastInDim S32000000 ![] bcast_S_S32000000 (constantI S_ 32 1000000#32))) src

/-- The first region's output tiles. -/
def featTiles (a0 : FVec Ideal S1000000x2 .f32) (a2 : IVec S32000000 32) (a4 : FVec Ideal S2x1 .f32) : FVec Ideal S8192x128 .f32 :=
  NodeProj.proj (tile (col0 a0)) (tile (col1 a0)) (tile (degree a2)) a4

/-- The messages summed at their destinations. -/
def aggFlat (a0 : FVec Ideal S1000000x2 .f32) (a1 : FVec Ideal S32000000 .f32) (a2 a3 : IVec S32000000 32)
    (a4 : FVec Ideal S2x1 .f32) : FVec Ideal S1000000 .f32 :=
  Host.scatterAdd (F := Ideal) scatter_S1000000_S32000000x1_S32000000_n_0_0_1 zerosN (asCol a3)
    (mulf (Host.gather gather_S1000000_S32000000x1_S32000000_n_0_n_n_0_1_1 (untile (featTiles a0 a2 a4)) (asCol (wrapped a2))) a1)

/-- The second region's output tiles. -/
def outTiles (a0 : FVec Ideal S1000000x2 .f32) (a1 : FVec Ideal S32000000 .f32) (a2 a3 : IVec S32000000 32)
    (a4 : FVec Ideal S2x1 .f32) (a5 : FVec Ideal S1 .f32) : FVec Ideal S8192x128 .f32 :=
  Finalize.fin (tile (aggFlat a0 a1 a2 a3 a4)) (tile (degree a3)) (shapeCast S1x1 a5 shapeCasts_S1_S1x1)

/-- The program's result row. -/
def result (a0 : FVec Ideal S1000000x2 .f32) (a1 : FVec Ideal S32000000 .f32) (a2 a3 : IVec S32000000 32)
    (a4 : FVec Ideal S2x1 .f32) (a5 : FVec Ideal S1 .f32) : FVec Ideal S1x1000000 .f32 :=
  shapeCast S1x1000000 (untile (outTiles a0 a1 a2 a3 a4 a5)) shapeCasts_S1000000_S1x1000000

end Cert.KernelIdeal.Terms

end
-- ==== Proof.HostEntry.lean ====
/-
  The host stretches before the first region, read from arbitrary contents `w` of the buffers at the launch.
  The first stretch computes the two degree arrays (ones summed at the source, respectively destination, indices over
  zeros) and the first coordinate column; the six stretches after it compute the second column and pad each of the
  three per-node vectors with zeros to 1,048,576 entries and lay it out as 8192 × 128 tiles. No stretch writes an
  argument array, and the in-degree array is not written again after the first stretch.
  The two column tiles and the carried buffers are read through all seven stretches at once. The out-degree tiles are
  read in two steps cut where the degree array is complete — the degree array after the first stretch, then the tiles
  of whatever that buffer holds after the other six — so that the padding only ever meets a buffer's contents, never
  the sum that produced them; the in-degree array is read the same way.
-/
import proofs.«136766_j52106543235761_2_alg».proof.Proof.KernelTerms

set_option maxRecDepth 16384

noncomputable section

namespace Cert.KernelIdeal.HostEntry

open Idealize.ShloMosaic Idealize.ShloMosaic.TcCoe Idealize.ShloMosaic.ValueIdx Idealize.SL.Sem
open Idealize.ShloMosaic.StableHlo
open Cert.KernelIdeal Cert.KernelIdeal.Gen Cert.KernelIdeal.Terms

/- The two edge-indexed reductions are kept closed below: every equation here matches them argument by argument and
   never needs their 32,000,000-term sums opened. -/
attribute [local irreducible] Host.scatterAdd Host.gather

variable (w : Valuation τ sig (Elt Ideal))

/-- The contents after the seven host stretches that precede the first region. -/
abbrev entry : Valuation τ sig (Elt Ideal) :=
  StableHlo.after hostOps0_6 (StableHlo.after hostOps0_5 (StableHlo.after hostOps0_4 (StableHlo.after hostOps0_3
    (StableHlo.after hostOps0_2 (StableHlo.after hostOps0_1 (StableHlo.after hostOps0 w))))))

/-- The contents after the last six of them. -/
abbrev entryTail : Valuation τ sig (Elt Ideal) :=
  StableHlo.after hostOps0_6 (StableHlo.after hostOps0_5 (StableHlo.after hostOps0_4 (StableHlo.after hostOps0_3
    (StableHlo.after hostOps0_2 (StableHlo.after hostOps0_1 w)))))

/-- The first coordinate column, tiled. -/
theorem entry_v10 : entry w (Proc.devRef .tc main_v10) = tile (col0 (w (Proc.devRef .tc main_arg0))) := by
  dsimp only [entry]
  after_results_simp
  rfl
/-- The second coordinate column, tiled. -/
theorem entry_v14 : entry w (Proc.devRef .tc main_v14) = tile (col1 (w (Proc.devRef .tc main_arg0))) := by
  dsimp only [entry]
  after_results_simp
  rfl
/-- After the first stretch: the degree array of the source indices. -/
theorem first_v3 : StableHlo.after hostOps0 w (Proc.devRef .tc main_v3) = degree (w (Proc.devRef .tc main_arg2)) := by
  after_results_simp
  rfl
/-- After the first stretch: the degree array of the destination indices. -/
theorem first_v6 : StableHlo.after hostOps0 w (Proc.devRef .tc main_v6) = degree (w (Proc.devRef .tc main_arg3)) := by
  after_results_simp
  rfl
/-- The other six stretches tile what the out-degree buffer holds. -/
theorem tail_v16 : entryTail w (Proc.devRef .tc main_v16) = tile (w (Proc.devRef .tc main_v3)) := by
  dsimp only [entryTail]
  after_results_simp
  rfl
/-- The other six stretches leave the in-degree buffer alone. -/
theorem tail_v6 : entryTail w (Proc.devRef .tc main_v6) = w (Proc.devRef .tc main_v6) := by
  dsimp only [entryTail]
  after_results_simp
/-- The out-degree array, tiled. -/
theorem entry_v16 : entry w (Proc.devRef .tc main_v16) = tile (degree (w (Proc.devRef .tc main_arg2))) :=
  (tail_v16 (StableHlo.after hostOps0 w)).trans (congrArg tile (first_v3 w))

/-- The in-degree array. -/
theorem entry_v6 : entry w (Proc.devRef .tc main_v6) = degree (w (Proc.devRef .tc main_arg3)) :=
  (tail_v6 (StableHlo.after hostOps0 w)).trans (first_v6 w)

/-! The argument arrays the later stages read are as in `w`. -/
theorem entry_arg1 : entry w (Proc.devRef .tc main_arg1) = w (Proc.devRef .tc main_arg1) := by
  dsimp only [entry]
  after_results_simp
theorem entry_arg2 : entry w (Proc.devRef .tc main_arg2) = w (Proc.devRef .tc main_arg2) := by
  dsimp only [entry]
  after_results_simp
theorem entry_arg3 : entry w (Proc.devRef .tc main_arg3) = w (Proc.devRef .tc main_arg3) := by
  dsimp only [entry]
  after_results_simp
theorem entry_arg4 : entry w (Proc.devRef .tc main_arg4) = w (Proc.devRef .tc main_arg4) := by
  dsimp only [entry]
  after_results_simp
theorem entry_arg5 : entry w (Proc.devRef .tc main_arg5) = w (Proc.devRef .tc main_arg5) := by
  dsimp only [entry]
  after_results_simp

end Cert.KernelIdeal.HostEntry

end
-- ==== Proof.HostMiddle.lean ====
/-
  The host stretches between the two regions, read from arbitrary contents `w` of the buffers at the first
  region's exit. The long first stretch cuts the feature tiles back to the nodes, wraps the source indices, gathers
  the features at them, multiplies by the edge weights and sums the products at the destinations; the four stretches
  after it pad that sum and the in-degree array with zeros and tile them, and shape the bias as a 1 × 1 array.
  The sum is read in two steps cut where it is complete: the sum after the long stretch, then the tiles of whatever
  that buffer holds after the other four. The padding value of those tiles is a scalar the long stretch itself wrote
  last, so the second step carries it as a parameter (`tileWith`) and the first step says it is the zero constant.
-/
import proofs.«136766_j52106543235761_2_alg».proof.Proof.KernelTerms

set_option maxRecDepth 16384

noncomputable section

namespace Cert.KernelIdeal.HostMiddle

open Idealize.ShloMosaic Idealize.ShloMosaic.TcCoe Idealize.ShloMosaic.ValueIdx Idealize.SL.Sem
open Idealize.ShloMosaic.StableHlo
open Cert.KernelIdeal Cert.KernelIdeal.Gen Cert.KernelIdeal.Terms

/- The two edge-indexed reductions are kept closed below: every equation here matches them argument by argument and
   never needs their 32,000,000-term sums opened. -/
attribute [local irreducible] Host.scatterAdd Host.gather

variable (w : Valuation τ sig (Elt Ideal))

/-- The contents after the five host stretches between the two regions. -/
abbrev middle : Valuation τ sig (Elt Ideal) :=
  StableHlo.after hostOps1_4 (StableHlo.after hostOps1_3 (StableHlo.after hostOps1_2 (StableHlo.after hostOps1_1
    (StableHlo.after hostOps1 w))))

/-- The contents after the last four of them. -/
abbrev middleTail : Valuation τ sig (Elt Ideal) :=
  StableHlo.after hostOps1_4 (StableHlo.after hostOps1_3 (StableHlo.after hostOps1_2 (StableHlo.after hostOps1_1 w)))

/-- The messages summed at their destinations, from arbitrary feature tiles. -/
def aggFrom (ft : FVec Ideal S8192x128 .f32) (a1 : FVec Ideal S32000000 .f32) (a2 a3 : IVec S32000000 32) : FVec Ideal S1000000 .f32 :=
  Host.scatterAdd (F := Ideal) scatter_S1000000_S32000000x1_S32000000_n_0_0_1 zerosN (asCol a3)
    (mulf (Host.gather gather_S1000000_S32000000x1_S32000000_n_0_n_n_0_1_1 (untile ft) (asCol (wrapped a2))) a1)

theorem aggFlat_eq (a0 : FVec Ideal S1000000x2 .f32) (a1 : FVec Ideal S32000000 .f32) (a2 a3 : IVec S32000000 32)
    (a4 : FVec Ideal S2x1 .f32) : aggFlat a0 a1 a2 a3 a4 = aggFrom (featTiles a0 a2 a4) a1 a2 a3 := rfl

/-- A per-node vector padded with the value of the integer scalar `p` and laid out as tiles. -/
def tileWith (x : FVec Ideal S1000000 .f32) (p : IVec S_ 32) : FVec Ideal S8192x128 .f32 :=
  shapeCast S8192x128 (pad S1048576 ![0] ![48576] ![0] x (sitofp (F := Ideal) .f32 p)
    pads_S1000000_S1048576_0485760 h_S_) shapeCasts_S1048576_S8192x128

theorem tile_eq (x : FVec Ideal S1000000 .f32) : tile x = tileWith x (constantI S_ 32 0#32) := rfl

/-- After the long stretch: the messages summed at their destinations. -/
theorem long_v30 : StableHlo.after hostOps1 w (Proc.devRef .tc main_v30) = aggFrom (w (Proc.devRef .tc main_v17)) (w (Proc.devRef .tc main_arg1)) (w (Proc.devRef .tc main_arg2)) (w (Proc.devRef .tc main_arg3)) := by
  after_results_simp
  rfl
/-- After the long stretch: the scalar the next padding reads is the zero constant. -/
theorem long_c7 : StableHlo.after hostOps1 w (Proc.devRef .tc main_c_7) = constantI S_ 32 0#32 := by
  after_results_simp
/-- The other four stretches tile what the sum's buffer holds, padded with what the scalar's buffer holds. -/
theorem rest_v32 : middleTail w (Proc.devRef .tc main_v32) = tileWith (w (Proc.devRef .tc main_v30)) (w (Proc.devRef .tc main_c_7)) := by
  dsimp only [middleTail]
  after_results_simp
  rfl
/-- The messages summed at their destinations, tiled. -/
theorem middle_v32 : middle w (Proc.devRef .tc main_v32)
    = tile (aggFrom (w (Proc.devRef .tc main_v17)) (w (Proc.devRef .tc main_arg1)) (w (Proc.devRef .tc main_arg2)) (w (Proc.devRef .tc main_arg3))) := by
  refine (rest_v32 (StableHlo.after hostOps1 w)).trans ?_
  rw [long_v30 w, long_c7 w]
  exact (tile_eq _).symm

/-- The in-degree buffer's contents, tiled. -/
theorem middle_v34 : middle w (Proc.devRef .tc main_v34) = tile (w (Proc.devRef .tc main_v6)) := by
  dsimp only [middle]
  after_results
  rfl

/-- The bias as a 1 × 1 array. -/
theorem middle_v35 : middle w (Proc.devRef .tc main_v35) = shapeCast S1x1 (w (Proc.devRef .tc main_arg5)) shapeCasts_S1_S1x1 := by
  dsimp only [middle]
  after_results
  rfl

end Cert.KernelIdeal.HostMiddle

end
-- ==== Proof.KernelStages.lean ====
/-
  The kernel program's buffers read back, boundary by boundary, as terms of its six argument arrays.
  The program is a chain: host stretches, the first region, host stretches, the second region, a last host stretch.
  At the first region's entry its three tiled inputs hold the two coordinate columns and the out-degree array, each
  padded with zeros and laid out as 8192 × 128 tiles, and the weight is as launched (HostEntry, taken at the launch
  contents); the region leaves the projection of these in its output array (Region0) and every other buffer as it
  found it. The stretches between the regions cut the projection back to the nodes, gather it at the wrapped source
  indices, weight it, sum it at the destinations and tile the sum; the in-degree array (written before the first
  region and carried through it) is tiled beside it and the bias is shaped as a 1 × 1 array (HostMiddle, taken at the
  first region's exit contents). The second region leaves the normalised sum plus the bias on tiles (Region1), and the
  last stretch cuts that back to the nodes and shapes it as a row: the result buffer at the return is `Terms.result`.
-/
import proofs.«136766_j52106543235761_2_alg».proof.Proof.HostEntry
import proofs.«136766_j52106543235761_2_alg».proof.Proof.HostMiddle

set_option maxRecDepth 16384

noncomputable section

namespace Cert.KernelIdeal.Stages

open Idealize.ShloMosaic Idealize.ShloMosaic.TcCoe Idealize.ShloMosaic.ValueIdx Idealize.SL.Sem
open Idealize.ShloMosaic.StableHlo
open Cert.KernelIdeal Cert.KernelIdeal.Gen Cert.KernelIdeal.Terms
open Cert.KernelIdeal.HostEntry Cert.KernelIdeal.HostMiddle

variable (m : (ℓ : Loc nD τ sig) → Buf (Elt Ideal) ℓ) (ρ : Dev nD → PrngReg) (c : Dev nD)

/-! ## The first region's entry: the launch contents run through the first seven stretches -/

theorem W7_v10 : W7 m ρ c (Proc.devRef .tc main_v10) = tile (col0 (m ((c : Thread nD τ).loc main_arg0))) := entry_v10 (W0 m ρ c)
theorem W7_v14 : W7 m ρ c (Proc.devRef .tc main_v14) = tile (col1 (m ((c : Thread nD τ).loc main_arg0))) := entry_v14 (W0 m ρ c)
theorem W7_v16 : W7 m ρ c (Proc.devRef .tc main_v16) = tile (degree (m ((c : Thread nD τ).loc main_arg2))) := entry_v16 (W0 m ρ c)
theorem W7_v6 : W7 m ρ c (Proc.devRef .tc main_v6) = degree (m ((c : Thread nD τ).loc main_arg3)) := entry_v6 (W0 m ρ c)
theorem W7_arg1 : W7 m ρ c (Proc.devRef .tc main_arg1) = (m ((c : Thread nD τ).loc main_arg1)) := entry_arg1 (W0 m ρ c)
theorem W7_arg2 : W7 m ρ c (Proc.devRef .tc main_arg2) = (m ((c : Thread nD τ).loc main_arg2)) := entry_arg2 (W0 m ρ c)
theorem W7_arg3 : W7 m ρ c (Proc.devRef .tc main_arg3) = (m ((c : Thread nD τ).loc main_arg3)) := entry_arg3 (W0 m ρ c)
theorem W7_arg4 : W7 m ρ c (Proc.devRef .tc main_arg4) = (m ((c : Thread nD τ).loc main_arg4)) := entry_arg4 (W0 m ρ c)
theorem W7_arg5 : W7 m ρ c (Proc.devRef .tc main_arg5) = (m ((c : Thread nD τ).loc main_arg5)) := entry_arg5 (W0 m ρ c)

/-! ## The first region's exit -/

/-- The region's output array: the projection of its four inputs. -/
theorem W8_v17 : W8 m ρ c (Proc.devRef .tc main_v17) = featTiles (m ((c : Thread nD τ).loc main_arg0)) (m ((c : Thread nD τ).loc main_arg2)) (m ((c : Thread nD τ).loc main_arg4)) := by
  refine (W8_arr m ρ c 4).trans ((NodeProj.final (V7 m ρ) c).trans ?_)
  show NodeProj.proj (W7 m ρ c (Proc.devRef .tc main_v10)) (W7 m ρ c (Proc.devRef .tc main_v14))
    (W7 m ρ c (Proc.devRef .tc main_v16)) (W7 m ρ c (Proc.devRef .tc main_arg4)) = _
  rw [W7_v10 m ρ c, W7_v14 m ρ c, W7_v16 m ρ c, W7_arg4 m ρ c]
  rfl

/-! The buffers the region does not write are as at its entry. -/
theorem W8_v6 : W8 m ρ c (Proc.devRef .tc main_v6) = degree (m ((c : Thread nD τ).loc main_arg3)) :=
  (W8_of_ne m ρ c main_v6 (by decide)).trans (W7_v6 m ρ c)
theorem W8_arg1 : W8 m ρ c (Proc.devRef .tc main_arg1) = (m ((c : Thread nD τ).loc main_arg1)) :=
  (W8_of_ne m ρ c main_arg1 (by decide)).trans (W7_arg1 m ρ c)
theorem W8_arg2 : W8 m ρ c (Proc.devRef .tc main_arg2) = (m ((c : Thread nD τ).loc main_arg2)) :=
  (W8_of_ne m ρ c main_arg2 (by decide)).trans (W7_arg2 m ρ c)
theorem W8_arg3 : W8 m ρ c (Proc.devRef .tc main_arg3) = (m ((c : Thread nD τ).loc main_arg3)) :=
  (W8_of_ne m ρ c main_arg3 (by decide)).trans (W7_arg3 m ρ c)
theorem W8_arg5 : W8 m ρ c (Proc.devRef .tc main_arg5) = (m ((c : Thread nD τ).loc main_arg5)) :=
  (W8_of_ne m ρ c main_arg5 (by decide)).trans (W7_arg5 m ρ c)

/-! ## The second region's entry: the first region's exit contents run through the next five stretches -/

/-- The messages summed at their destinations, tiled. -/
theorem W13_v32 : W13 m ρ c (Proc.devRef .tc main_v32) = tile (aggFlat (m ((c : Thread nD τ).loc main_arg0)) (m ((c : Thread nD τ).loc main_arg1)) (m ((c : Thread nD τ).loc main_arg2)) (m ((c : Thread nD τ).loc main_arg3)) (m ((c : Thread nD τ).loc main_arg4))) := by
  refine (middle_v32 (W8 m ρ c)).trans ?_
  rw [W8_v17 m ρ c, W8_arg1 m ρ c, W8_arg2 m ρ c, W8_arg3 m ρ c]
  exact congrArg tile (aggFlat_eq _ _ _ _ _).symm

/-- The in-degree array, tiled. -/
theorem W13_v34 : W13 m ρ c (Proc.devRef .tc main_v34) = tile (degree (m ((c : Thread nD τ).loc main_arg3))) := by
  refine (middle_v34 (W8 m ρ c)).trans ?_
  rw [W8_v6 m ρ c]

/-- The bias as a 1 × 1 array. -/
theorem W13_v35 : W13 m ρ c (Proc.devRef .tc main_v35) = shapeCast S1x1 (m ((c : Thread nD τ).loc main_arg5)) shapeCasts_S1_S1x1 := by
  refine (middle_v35 (W8 m ρ c)).trans ?_
  rw [W8_arg5 m ρ c]

/-! ## The second region's exit and the result -/

/-- The region's output array: the normalised sum plus the bias, on tiles. -/
theorem W14_v36 : W14 m ρ c (Proc.devRef .tc main_v36) = outTiles (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W14_arr m ρ c 3).trans ((Finalize.final (V13 m ρ) c).trans ?_)
  show Finalize.fin (W13 m ρ c (Proc.devRef .tc main_v32)) (W13 m ρ c (Proc.devRef .tc main_v34))
    (W13 m ρ c (Proc.devRef .tc main_v35)) = _
  rw [W13_v32 m ρ c, W13_v34 m ρ c, W13_v35 m ρ c]
  rfl

/-- The result buffer at the return: the program's result row, as a term of the six argument arrays. -/
theorem W15_v39 : W15 m ρ c (Proc.devRef .tc main_v39) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W14 m ρ c) (Proc.devRef .tc main_v39) = _
  after_results
  rw [W14_v36 m ρ c]
  rfl

end Cert.KernelIdeal.Stages

end
-- ==== Proof.LibTakeColumn.lean ====
/-
  GATHER AND SCATTER-ADD WITH A TRAILING UNIT AXIS. A table of `N` rows can be held flat, shape `[N]`, or as a
  column, shape `[N, 1]`; likewise `E` gathered or scattered values, `[E]` or `[E, 1]`. The start indices are in
  both cases an integer array of shape `[E, 1]`: one scalar row number per position, the index vector along axis 1.

  This file gives the dimension numbers of the four operations (flat / column gather, flat / column scatter), general
  in the extents `N` and `E`, and proves:

  * `gather_flat_apply`, `gather_col_apply`: the gather read at position `e` is the table at row
    `min (idx[e, 0] read signed, negative ↦ 0) (N − 1)`, i.e. the start index clamped into `[0, N − 1]`;
  * `gather_col_eq_flat`: the column gather of a column table and the flat gather of a flat table with the same
    entries agree position by position;
  * `resultIdx_flat`, `resultIdx_col`: update `e` of the scatter lands on row `n` exactly when `idx[e, 0]`, read
    signed and NOT clamped, equals `n` (an index outside `[0, N)` lands nowhere);
  * `scatterAdd_col_eq_flat` (and `host_scatterAdd_col_eq_flat`): over the extended reals, the column scatter-add
    of column updates into a column table and the flat scatter-add of the same updates into the same table agree
    row by row: both are `z n + ∑ { e | idx[e, 0] = n } u e`.
-/
import Idealize.ShloMosaic.Lib.ValueIdx

noncomputable section

open scoped BigOperators
open Idealize.ShloMosaic Idealize.ShloMosaic.ValueIdx

namespace Cert.Lib.TakeColumn

/-! ## The dimension numbers -/

/-- Gather of a flat table `[N]` at start indices `[E, 1]`, result `[E]`: the one operand axis is collapsed and is
    the target of the start index's one component; no offset axes. -/
abbrev flatGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Gather of a column table `[N, 1]` at start indices `[E, 1]`, result `[E, 1]`: operand axis 0 is collapsed and is
    the target of the start index's one component; operand axis 1 (size 1, slice size 1) is the result's offset
    axis 1. -/
abbrev colGather (N E : Nat) (wf : GatherDims.WF ⟨2, ![N, 1]⟩ ⟨2, ![E, 1]⟩ ⟨2, ![E, 1]⟩ [1] [0] [] [0] [] 1 ![1, 1]) :
    GatherDims ⟨2, ![N, 1]⟩ ⟨2, ![E, 1]⟩ ⟨2, ![E, 1]⟩ where
  offsetDims := [1]
  collapsedSliceDims := [0]
  operandBatchingDims := []
  startIndicesBatchingDims := []
  startIndexMap := [0]
  indexVectorDim := 1
  sliceSizes := ![1, 1]
  wf := wf

/-- Scatter into a flat table `[N]` at scatter indices `[E, 1]` of updates `[E]`: the one operand axis is an inserted
    window axis and is the target of the scatter index's one component; no window axes. -/
abbrev flatScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Scatter into a column table `[N, 1]` at scatter indices `[E, 1]` of updates `[E, 1]`: operand axis 0 is an
    inserted window axis and is the target of the scatter index's one component; the updates' axis 1 is a window
    axis going to operand axis 1. -/
abbrev colScatter (N E : Nat) (wf : ScatterDims.WF ⟨2, ![N, 1]⟩ ⟨2, ![E, 1]⟩ ⟨2, ![E, 1]⟩ [1] [0] [0] 1) :
    ScatterDims ⟨2, ![N, 1]⟩ ⟨2, ![E, 1]⟩ ⟨2, ![E, 1]⟩ where
  updateWindowDims := [1]
  insertedWindowDims := [0]
  scatterDimsToOperandDims := [0]
  indexVectorDim := 1
  wf := wf

/-! ## The gathers read at a position -/

section Gather
variable {α : Type}

/-- THE FLAT GATHER READ AT `e`: the table at the start index `idx[e, 0]`, read signed and clamped into
    `[0, N − 1]`. -/
theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatGather N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (flatGather N E wf).start (ix1 e) idx 0 + (flatGather N E wf).batchCoord (ix1 e) 0
    + (flatGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGather N E wf).startIndexMap from List.mem_singleton.mpr rfl)]
  have hsi : (flatGather N E wf).siIdx (ix1 e) ⟨List.idxOf (0 : Fin 1) (flatGather N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- THE COLUMN GATHER READ AT `(e, 0)`: the table at `(r, 0)`, `r` the start index `idx[e, 0]` read signed and
    clamped into `[0, N − 1]`. On operand axis 1 the start is `0` (the start index map does not name it) and the
    offset coordinate is below the slice size `1`. -/
theorem gather_col_apply {N E w : Nat} (hN : 0 < N)
    (wf : GatherDims.WF ⟨2, ![N, 1]⟩ ⟨2, ![E, 1]⟩ ⟨2, ![E, 1]⟩ [1] [0] [] [0] [] 1 ![1, 1])
    (x : (⟨2, ![N, 1]⟩ : Shape).Idx → α) (idx : IVec ⟨2, ![E, 1]⟩ w) (e : Fin E) :
    Host.gather (colGather N E wf) x idx (ix2 e 0)
      = x (ix2 ⟨min (idx (ix2 e 0)).toInt.toNat (N - 1), by omega⟩ 0) := by
  unfold Host.gather
  congr 1
  funext a
  refine Fin.ext ?_
  show (colGather N E wf).start (ix2 e 0) idx a + (colGather N E wf).batchCoord (ix2 e 0) a
    + (colGather N E wf).offCoord (ix2 e 0) a = _
  rw [GatherDims.batchCoord_eq_zero _ _ _ List.not_mem_nil]
  simp only [Nat.add_zero]
  match a with
  | ⟨0, _⟩ =>
    show (colGather N E wf).start (ix2 e 0) idx 0 + (colGather N E wf).offCoord (ix2 e 0) 0
      = min (idx (ix2 e 0)).toInt.toNat (N - 1)
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (colGather N E wf).startIndexMap from List.mem_singleton.mpr rfl)]
    have hsi : (colGather N E wf).siIdx (ix2 e 0) ⟨List.idxOf (0 : Fin 2) (colGather N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    have hs : (colGather N E wf).start (ix2 e 0) idx 1 = 0 := by
      unfold GatherDims.start
      rw [dif_neg (fun h => absurd (congrArg Fin.val (List.mem_singleton.mp h)) Nat.one_ne_zero)]
    have ho : (colGather N E wf).offCoord (ix2 e 0) 1 = 0 := by
      by_cases h : (1 : Fin 2) ∈ (colGather N E wf).sKept
      · have hlt := GatherDims.offCoord_lt (colGather N E wf) (ix2 e 0) 1 h
        have h1 : (colGather N E wf).sliceSizes 1 = 1 := rfl
        omega
      · exact GatherDims.offCoord_eq_zero _ _ _ h
    show (colGather N E wf).start (ix2 e 0) idx 1 + (colGather N E wf).offCoord (ix2 e 0) 1 = 0
    rw [hs, ho]

/-- THE COLUMN GATHER IS THE FLAT ONE: of tables with the same entries, at the same start indices, position by
    position. -/
theorem gather_col_eq_flat {N E w : Nat} (hN : 0 < N)
    (wfc : GatherDims.WF ⟨2, ![N, 1]⟩ ⟨2, ![E, 1]⟩ ⟨2, ![E, 1]⟩ [1] [0] [] [0] [] 1 ![1, 1])
    (wff : GatherDims.WF ⟨1, ![N]⟩ ⟨2, ![E, 1]⟩ ⟨1, ![E]⟩ [] [0] [] [0] [] 1 ![1])
    (x' : (⟨2, ![N, 1]⟩ : Shape).Idx → α) (x : (⟨1, ![N]⟩ : Shape).Idx → α)
    (hx : ∀ n : Fin N, x' (ix2 n 0) = x (ix1 n)) (idx : IVec ⟨2, ![E, 1]⟩ w) (e : Fin E) :
    Host.gather (colGather N E wfc) x' idx (ix2 e 0) = Host.gather (flatGather N E wff) x idx (ix1 e) := by
  rw [gather_col_apply hN wfc x' idx e, gather_flat_apply hN wff x idx e, hx]

end Gather

/-! ## Where a scatter's update lands -/

section Scatter

/-- The flat scatter's start on its one operand axis for update `e`: the scatter index `idx[e, 0]`, read signed. -/
theorem flatScatter_start {N E w : Nat} (wf : ScatterDims.WF ⟨1, ![N]⟩ ⟨2, ![E, 1]⟩ ⟨1, ![E]⟩ [] [0] [0] 1)
    (idx : IVec ⟨2, ![E, 1]⟩ w) (e : Fin E) (a : Fin 1) :
    (flatScatter N E wf).start (ix1 e) idx a = (idx (ix2 e 0)).toInt := by
  obtain rfl : a = 0 := Subsingleton.elim _ _
  unfold ScatterDims.start
  rw [dif_pos (show (0 : Fin 1) ∈ (flatScatter N E wf).scatterDimsToOperandDims from List.mem_singleton.mpr rfl)]
  have hsi : (flatScatter N E wf).siIdx (ix1 e) ⟨List.idxOf (0 : Fin 1) (flatScatter N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The flat scatter has no window: its one operand axis is an inserted one. -/
theorem flatScatter_window {N E : Nat} (wf : ScatterDims.WF ⟨1, ![N]⟩ ⟨2, ![E, 1]⟩ ⟨1, ![E]⟩ [] [0] [0] 1)
    (e : Fin E) (a : Fin 1) : (flatScatter N E wf).window (ix1 e) a = 0 := by
  obtain rfl : a = 0 := Subsingleton.elim _ _
  unfold ScatterDims.window
  rw [dif_neg (by simp [ScatterDims.sKept, Shape.kept])]

/-- The column scatter's start on operand axis 0 for update `(e, 0)`: the scatter index `idx[e, 0]`, read signed. -/
theorem colScatter_start_zero {N E w : Nat} (wf : ScatterDims.WF ⟨2, ![N, 1]⟩ ⟨2, ![E, 1]⟩ ⟨2, ![E, 1]⟩ [1] [0] [0] 1)
    (idx : IVec ⟨2, ![E, 1]⟩ w) (e : Fin E) :
    (colScatter N E wf).start (ix2 e 0) idx 0 = (idx (ix2 e 0)).toInt := by
  unfold ScatterDims.start
  rw [dif_pos (show (0 : Fin 2) ∈ (colScatter N E wf).scatterDimsToOperandDims from List.mem_singleton.mpr rfl)]
  have hsi : (colScatter N E wf).siIdx (ix2 e 0) ⟨List.idxOf (0 : Fin 2) (colScatter N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The column scatter's start on operand axis 1 is `0`: the scatter index has no component for it. -/
theorem colScatter_start_one {N E w : Nat} (wf : ScatterDims.WF ⟨2, ![N, 1]⟩ ⟨2, ![E, 1]⟩ ⟨2, ![E, 1]⟩ [1] [0] [0] 1)
    (idx : IVec ⟨2, ![E, 1]⟩ w) (e : Fin E) :
    (colScatter N E wf).start (ix2 e 0) idx 1 = 0 := by
  unfold ScatterDims.start
  rw [dif_neg (fun h => absurd (congrArg Fin.val (List.mem_singleton.mp h)) Nat.one_ne_zero)]

/-- The column scatter's window coordinate on operand axis 0 is `0`: that axis is an inserted one. -/
theorem colScatter_window_zero {N E : Nat} (wf : ScatterDims.WF ⟨2, ![N, 1]⟩ ⟨2, ![E, 1]⟩ ⟨2, ![E, 1]⟩ [1] [0] [0] 1)
    (e : Fin E) : (colScatter N E wf).window (ix2 e 0) 0 = 0 := by
  unfold ScatterDims.window
  rw [dif_neg (by simp [ScatterDims.sKept, Shape.kept])]

/-- The column scatter's window coordinate on operand axis 1 is the update's coordinate on its axis 1, which is
    `0` (that axis has size 1). -/
theorem colScatter_window_one {N E : Nat} (wf : ScatterDims.WF ⟨2, ![N, 1]⟩ ⟨2, ![E, 1]⟩ ⟨2, ![E, 1]⟩ [1] [0] [0] 1)
    (e : Fin E) : (colScatter N E wf).window (ix2 e 0) 1 = 0 := by
  unfold ScatterDims.window
  split
  · rfl
  · rfl

/-- WHERE THE FLAT SCATTER'S UPDATE `e` LANDS: on row `n` exactly when the scatter index `idx[e, 0]`, read signed,
    is `n`. -/
theorem resultIdx_flat {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (flatScatter N E wf).resultIdx? (ix1 e) idx = some (ix1 n) ↔ (idx (ix2 e 0)).toInt = (n.val : Int) := by
  have hs := flatScatter_start wf idx e 0
  have hw := flatScatter_window wf e 0
  have hn := n.isLt
  unfold ScatterDims.resultIdx?
  split
  · next h =>
    have h0 : 0 ≤ (flatScatter N E wf).start (ix1 e) idx 0 + ((flatScatter N E wf).window (ix1 e) 0 : Nat)
        ∧ (flatScatter N E wf).start (ix1 e) idx 0 + ((flatScatter N E wf).window (ix1 e) 0 : Nat) < (N : Int) := h 0
    rw [hs, hw] at h0
    constructor
    · intro hf
      have h1 : ((flatScatter N E wf).start (ix1 e) idx 0 + ((flatScatter N E wf).window (ix1 e) 0 : Nat)).toNat = n.val :=
        congrArg (fun f => (f 0).val) (Option.some.inj hf)
      rw [hs, hw] at h1
      omega
    · intro hv
      congr 1
      funext a
      obtain rfl : a = 0 := Subsingleton.elim _ _
      refine Fin.ext ?_
      show ((flatScatter N E wf).start (ix1 e) idx 0 + ((flatScatter N E wf).window (ix1 e) 0 : Nat)).toNat = n.val
      rw [hs, hw, hv]
      omega
  · next h =>
    constructor
    · intro hf
      exact absurd hf (by simp)
    · intro hv
      refine absurd (fun a => ?_) h
      obtain rfl : a = 0 := Subsingleton.elim _ _
      show 0 ≤ (flatScatter N E wf).start (ix1 e) idx 0 + ((flatScatter N E wf).window (ix1 e) 0 : Nat)
        ∧ (flatScatter N E wf).start (ix1 e) idx 0 + ((flatScatter N E wf).window (ix1 e) 0 : Nat) < (N : Int)
      rw [hs, hw, hv]
      omega

/-- WHERE THE COLUMN SCATTER'S UPDATE `(e, 0)` LANDS: on `(n, 0)` exactly when the scatter index `idx[e, 0]`, read
    signed, is `n`. On axis 1 start and window coordinate are both `0`, inside the size-1 axis. -/
theorem resultIdx_col {N E w : Nat} (wf : ScatterDims.WF ⟨2, ![N, 1]⟩ ⟨2, ![E, 1]⟩ ⟨2, ![E, 1]⟩ [1] [0] [0] 1)
    (idx : IVec ⟨2, ![E, 1]⟩ w) (e : Fin E) (n : Fin N) :
    (colScatter N E wf).resultIdx? (ix2 e 0) idx = some (ix2 n 0) ↔ (idx (ix2 e 0)).toInt = (n.val : Int) := by
  have hs0 := colScatter_start_zero wf idx e
  have hs1 := colScatter_start_one wf idx e
  have hw0 := colScatter_window_zero wf e
  have hw1 := colScatter_window_one wf e
  have hn := n.isLt
  unfold ScatterDims.resultIdx?
  split
  · next h =>
    have h0 : 0 ≤ (colScatter N E wf).start (ix2 e 0) idx 0 + ((colScatter N E wf).window (ix2 e 0) 0 : Nat)
        ∧ (colScatter N E wf).start (ix2 e 0) idx 0 + ((colScatter N E wf).window (ix2 e 0) 0 : Nat) < (N : Int) := h 0
    rw [hs0, hw0] at h0
    constructor
    · intro hf
      have h1 : ((colScatter N E wf).start (ix2 e 0) idx 0 + ((colScatter N E wf).window (ix2 e 0) 0 : Nat)).toNat = n.val :=
        congrArg (fun f => (f 0).val) (Option.some.inj hf)
      rw [hs0, hw0] at h1
      omega
    · intro hv
      congr 1
      funext a
      refine Fin.ext ?_
      match a with
      | ⟨0, _⟩ =>
        show ((colScatter N E wf).start (ix2 e 0) idx 0 + ((colScatter N E wf).window (ix2 e 0) 0 : Nat)).toNat = n.val
        rw [hs0, hw0, hv]
        omega
      | ⟨1, _⟩ =>
        show ((colScatter N E wf).start (ix2 e 0) idx 1 + ((colScatter N E wf).window (ix2 e 0) 1 : Nat)).toNat = 0
        rw [hs1, hw1]
        rfl
  · next h =>
    constructor
    · intro hf
      exact absurd hf (by simp)
    · intro hv
      refine absurd (fun a => ?_) h
      match a with
      | ⟨0, _⟩ =>
        show 0 ≤ (colScatter N E wf).start (ix2 e 0) idx 0 + ((colScatter N E wf).window (ix2 e 0) 0 : Nat)
          ∧ (colScatter N E wf).start (ix2 e 0) idx 0 + ((colScatter N E wf).window (ix2 e 0) 0 : Nat) < (N : Int)
        rw [hs0, hw0, hv]
        omega
      | ⟨1, _⟩ =>
        show 0 ≤ (colScatter N E wf).start (ix2 e 0) idx 1 + ((colScatter N E wf).window (ix2 e 0) 1 : Nat)
          ∧ (colScatter N E wf).start (ix2 e 0) idx 1 + ((colScatter N E wf).window (ix2 e 0) 1 : Nat) < ((1 : Nat) : Int)
        rw [hs1, hw1]
        omega

/-! ## The scatter-adds agree -/

/-- THE COLUMN SCATTER-ADD IS THE FLAT ONE, over the extended reals: of tables with the same entries and updates with
    the same entries, at the same scatter indices, row by row. Both sides are the table's entry plus the sum of the
    updates whose scatter index is that row; the sums correspond along `e ↦ (e, 0)`. -/
theorem scatterAdd_col_eq_flat {N E w : Nat}
    (wfc : ScatterDims.WF ⟨2, ![N, 1]⟩ ⟨2, ![E, 1]⟩ ⟨2, ![E, 1]⟩ [1] [0] [0] 1)
    (wff : ScatterDims.WF ⟨1, ![N]⟩ ⟨2, ![E, 1]⟩ ⟨1, ![E]⟩ [] [0] [0] 1)
    (z' : (⟨2, ![N, 1]⟩ : Shape).Idx → EReal) (z : (⟨1, ![N]⟩ : Shape).Idx → EReal)
    (u' : (⟨2, ![E, 1]⟩ : Shape).Idx → EReal) (u : (⟨1, ![E]⟩ : Shape).Idx → EReal)
    (idx : IVec ⟨2, ![E, 1]⟩ w)
    (hz : ∀ n : Fin N, z' (ix2 n 0) = z (ix1 n)) (hu : ∀ e : Fin E, u' (ix2 e 0) = u (ix1 e)) (n : Fin N) :
    Ideal.hostScatterAdd (colScatter N E wfc) z' idx u' (ix2 n 0)
      = Ideal.hostScatterAdd (flatScatter N E wff) z idx u (ix1 n) := by
  unfold Ideal.hostScatterAdd
  rw [hz]
  congr 1
  symm
  refine Finset.sum_bij (fun (j : (⟨1, ![E]⟩ : Shape).Idx) _ => (ix2 (j 0) 0 : (⟨2, ![E, 1]⟩ : Shape).Idx)) ?_ ?_ ?_ ?_
  · intro j hj
    rw [Finset.mem_filter] at hj ⊢
    refine ⟨Finset.mem_univ _, ?_⟩
    have hj2 := hj.2
    rw [eq_ix1 j] at hj2
    exact (resultIdx_col wfc idx (j 0) n).mpr ((resultIdx_flat wff idx (j 0) n).mp hj2)
  · intro j₁ _ j₂ _ h
    have h0 : (j₁ 0) = (j₂ 0) := congrFun h 0
    rw [eq_ix1 j₁, eq_ix1 j₂]
    exact congrArg ix1 h0
  · intro j' hj'
    rw [Finset.mem_filter] at hj'
    have hj'eq : j' = ix2 (j' 0) 0 := by
      funext a
      match a with
      | ⟨0, _⟩ => rfl
      | ⟨1, _⟩ => exact Subsingleton.elim (α := Fin 1) _ _
    refine ⟨ix1 (j' 0), ?_, hj'eq.symm⟩
    rw [Finset.mem_filter]
    refine ⟨Finset.mem_univ _, ?_⟩
    have hj2 := hj'.2
    rw [hj'eq] at hj2
    exact (resultIdx_flat wff idx (j' 0) n).mpr ((resultIdx_col wfc idx (j' 0) n).mp hj2)
  · intro j _
    rw [hu (j 0)]
    exact congrArg u (eq_ix1 j)

/-- The same for the host scatter-add of a program at the ideal instance, which is that exact sum. -/
theorem host_scatterAdd_col_eq_flat {N E w : Nat}
    (wfc : ScatterDims.WF ⟨2, ![N, 1]⟩ ⟨2, ![E, 1]⟩ ⟨2, ![E, 1]⟩ [1] [0] [0] 1)
    (wff : ScatterDims.WF ⟨1, ![N]⟩ ⟨2, ![E, 1]⟩ ⟨1, ![E]⟩ [] [0] [0] 1)
    (z' : FVec Ideal ⟨2, ![N, 1]⟩ .f32) (z : FVec Ideal ⟨1, ![N]⟩ .f32)
    (u' : FVec Ideal ⟨2, ![E, 1]⟩ .f32) (u : FVec Ideal ⟨1, ![E]⟩ .f32)
    (idx : IVec ⟨2, ![E, 1]⟩ w)
    (hz : ∀ n : Fin N, z' (ix2 n 0) = z (ix1 n)) (hu : ∀ e : Fin E, u' (ix2 e 0) = u (ix1 e)) (n : Fin N) :
    Host.scatterAdd (F := Ideal) (colScatter N E wfc) z' idx u' (ix2 n 0)
      = Host.scatterAdd (F := Ideal) (flatScatter N E wff) z idx u (ix1 n) :=
  scatterAdd_col_eq_flat wfc wff z' z u' u idx hz hu n

end Scatter

end Cert.Lib.TakeColumn

end
-- ==== Proof.Spec.lean ====
/-
  The common form both programs are shown to compute, over the extended reals. For a graph with 1,000,000 nodes and
  32,000,000 edges, with out- and in-degree arrays given:
    feat(n) = (x_n · ν(dout_n)) · w₀ + (y_n · ν(dout_n)) · w₁,   ν(d) = rsqrt(max(d, 1)),
    msg(e)  = feat(s_e) · weight_e,   s_e the edge's source index read signed and clamped into the node range,
    agg(n)  = 0 + Σ over the edges e whose destination index is n of msg(e),
    out(n)  = agg(n) · ν(din_n) + b.
  The result is the 1 × 1,000,000 row of the out(n).
-/
import Idealize.ShloMosaic.PureOps.Ideal
import Idealize.ShloMosaic.PureOps.Contract
import Idealize.ShloMosaic.Lib.ValueIdx
import proofs.«136766_j52106543235761_2_alg».proof.Proof.LibTakeColumn

noncomputable section

namespace Cert.Spec

open Idealize.ShloMosaic Idealize.ShloMosaic.ValueIdx Cert.Lib.TakeColumn

/-- The degree normaliser: the reciprocal square root of the degree raised to at least one. -/
def norm (d : EReal) : EReal := Ideal.rsqrt (max d (Ideal.ofBits .f32 0x3F800000#32))

/-- A node's projected feature, scaled by its out-degree normaliser before the projection. -/
def feat (pos : FVec Ideal ⟨2, ![1000000, 2]⟩ .f32) (W : FVec Ideal ⟨2, ![2, 1]⟩ .f32)
    (degOut : FVec Ideal ⟨1, ![1000000]⟩ .f32) (n : Fin 1000000) : EReal :=
  pos (ix2 n 0) * norm (degOut (ix1 n)) * W (ix2 0 0) + pos (ix2 n 1) * norm (degOut (ix1 n)) * W (ix2 1 0)

/-- The node an edge's source index selects: the index read signed and clamped into the node range. -/
def pick (wsrc : IVec ⟨2, ![32000000, 1]⟩ 32) (e : Fin 32000000) : Fin 1000000 :=
  ⟨min (wsrc (ix2 e 0)).toInt.toNat (1000000 - 1), by omega⟩

/-- An edge's message: its source's feature times the edge weight. -/
def msg (pos : FVec Ideal ⟨2, ![1000000, 2]⟩ .f32) (weight : FVec Ideal ⟨1, ![32000000]⟩ .f32)
    (W : FVec Ideal ⟨2, ![2, 1]⟩ .f32) (degOut : FVec Ideal ⟨1, ![1000000]⟩ .f32)
    (wsrc : IVec ⟨2, ![32000000, 1]⟩ 32) : FVec Ideal ⟨1, ![32000000]⟩ .f32 :=
  fun j => feat pos W degOut (pick wsrc (j 0)) * weight j

variable (wf : ScatterDims.WF ⟨1, ![1000000]⟩ ⟨2, ![32000000, 1]⟩ ⟨1, ![32000000]⟩ [] [0] [0] 1)

/-- The messages summed at their destinations, from zero. -/
def agg (pos : FVec Ideal ⟨2, ![1000000, 2]⟩ .f32) (weight : FVec Ideal ⟨1, ![32000000]⟩ .f32)
    (W : FVec Ideal ⟨2, ![2, 1]⟩ .f32) (degOut : FVec Ideal ⟨1, ![1000000]⟩ .f32)
    (wsrc dst : IVec ⟨2, ![32000000, 1]⟩ 32) : FVec Ideal ⟨1, ![1000000]⟩ .f32 :=
  Host.scatterAdd (F := Ideal) (flatScatter 1000000 32000000 wf) (fun _ => Ideal.ofBits .f32 0x00000000#32) dst
    (msg pos weight W degOut wsrc)

/-- The result row. -/
def out (pos : FVec Ideal ⟨2, ![1000000, 2]⟩ .f32) (weight : FVec Ideal ⟨1, ![32000000]⟩ .f32)
    (W : FVec Ideal ⟨2, ![2, 1]⟩ .f32) (b : FVec Ideal ⟨1, ![1]⟩ .f32)
    (degOut degIn : FVec Ideal ⟨1, ![1000000]⟩ .f32)
    (wsrc dst : IVec ⟨2, ![32000000, 1]⟩ 32) : FVec Ideal ⟨2, ![1, 1000000]⟩ .f32 :=
  fun i => agg wf pos weight W degOut wsrc dst (ix1 (i 1)) * norm (degIn (ix1 (i 1))) + b (ix1 0)

end Cert.Spec

end
-- ==== Proof.LibPadTile.lean ====
/-
  HOST LAYOUT OPERATIONS READ AT AN INDEX: a vector tiled into a matrix, and back.

  A vector of n entries is padded at its end to m = r * l entries and the padded vector is read as an r × l matrix
  in row-major order: entry k of the padded vector is entry (k / l, k % l) of the matrix, and entry (a, b) of the
  matrix is entry a * l + b of the padded vector. This file proves, for arbitrary extents n, r, l (and padding p) and
  an arbitrary element type:

  * pad_tile_apply' / pad_tile_apply — entry (a, b) of the tiled padded vector, with a * l + b = k < n, is entry k
    of the vector; in particular entry (k / l, k % l) is entry k;
  * pad_tile_apply_of_ge — entry (a, b) with n ≤ a * l + b is the padding value;
  * untile_slice_apply' / untile_slice_apply — conversely, entry k of the first n entries of the flattened r × l
    matrix is the matrix's entry (a, b) whenever k = a * l + b; in particular its entry (k / l, k % l);
  * col_apply — column c of an n × 2 matrix, cut out as an n × 1 matrix and read as a vector, has the matrix's
    entry (k, c) at entry k;
  * row_apply, cell_apply — a vector read as a one-row matrix has entry k at (0, k); a one-entry vector read as a
    1 × 1 matrix has its entry at (0, 0);
  * transpose_col_apply — the transpose of an n × 1 column is the 1 × n row with the same entries.

  The only arithmetic is the division identity k = (k / l) * l + k % l with k % l < l, the bound
  a * l + b < r * l for a < r, b < l (pos_lt_mul), and its converse k / l < r for k < r * l
  (div_lt_of_lt_of_le_mul).
-/
import Idealize.ShloMosaic.Lib.ValueIdx
import Idealize.ShloMosaic.Lib.Pipeline.Value
import Idealize.ShloMosaic.Lib.ValueLayout
import Idealize.ShloMosaic.Lib.KernelVsHost

noncomputable section

open Idealize.ShloMosaic Idealize.ShloMosaic.ValueIdx

namespace Cert.Lib.PadTile

variable {α : Type}

/-! ## Arithmetic of row-major positions in an r × l matrix -/

/-- A row-major position `a * l + b` with `a < r` and `b < l` is below `r * l`. -/
theorem pos_lt_mul {r l a b : Nat} (ha : a < r) (hb : b < l) : a * l + b < r * l :=
  calc a * l + b < a * l + l := Nat.add_lt_add_left hb _
    _ = (a + 1) * l := (Nat.succ_mul a l).symm
    _ ≤ r * l := Nat.mul_le_mul_right l ha

/-- `k` is below `r * l` as soon as its row `k / l` is below `r`. -/
theorem lt_mul_of_div_lt {r l k : Nat} (hl : 0 < l) (hr : k / l < r) : k < r * l := by
  have h := pos_lt_mul hr (Nat.mod_lt k hl)
  rwa [Nat.div_add_mod'] at h

/-- Conversely the row `k / l` of a position `k` below `n ≤ r * l` is below `r`: the side condition the reads below ask
    for. -/
theorem div_lt_of_lt_of_le_mul {n r l k : Nat} (hl : 0 < l) (hk : k < n) (hn : n ≤ r * l) : k / l < r :=
  (Nat.div_lt_iff_lt_mul hl).2 (Nat.lt_of_lt_of_le hk hn)

/-! ## A vector padded at its end and tiled -/

/-- Entry `(a, b)` of the padded vector read as an `r × l` matrix is entry `k = a * l + b` of the vector, when `k`
    is one of the vector's own `n` positions. -/
theorem pad_tile_apply' {n m r l p : Nat} (hm : m = r * l) (x : (⟨1, ![n]⟩ : Shape).Idx → α) {u : Shape}
    (v : u.Idx → α) (hp : (⟨1, ![n]⟩ : Shape).Pads (![0] : Fin 1 → Nat) ![p] ![0] ⟨1, ![m]⟩) (hu : 0 < u.numel)
    (hc : (⟨1, ![m]⟩ : Shape).ShapeCasts ⟨2, ![r, l]⟩) (a : Fin r) (b : Fin l) (k : Fin n)
    (hk : k.val = a.val * l + b.val) :
    shapeCast ⟨2, ![r, l]⟩ (pad ⟨1, ![m]⟩ ![0] ![p] ![0] x v hp hu) hc (ix2 a b) = x (ix1 k) := by
  have hkm : k.val < m := by rw [hk, hm]; exact pos_lt_mul a.isLt b.isLt
  refine (shapeCast_apply _ hc (ix2 a b) (ix1 (⟨k.val, hkm⟩ : Fin m)) (by
    rw [Shape.rowMajor_val_two, Shape.rowMajor_val_one]
    show k.val = a.val * l + b.val
    exact hk)).trans ?_
  exact pad_apply_of_inside _ _ _ x v hp hu _ (ix1 k) (by
    intro c
    have hc0 : c = 0 := Subsingleton.elim _ _
    subst hc0
    show k.val = 0 + k.val * (0 + 1)
    omega)

/-- Entry `(k / l, k % l)` of the tiled padded vector is entry `k` of the vector, for `k < n`. -/
theorem pad_tile_apply {n m r l p : Nat} (hl : 0 < l) (hm : m = r * l) (x : (⟨1, ![n]⟩ : Shape).Idx → α) {u : Shape}
    (v : u.Idx → α) (hp : (⟨1, ![n]⟩ : Shape).Pads (![0] : Fin 1 → Nat) ![p] ![0] ⟨1, ![m]⟩) (hu : 0 < u.numel)
    (hc : (⟨1, ![m]⟩ : Shape).ShapeCasts ⟨2, ![r, l]⟩) (k : Fin n) (hr : k.val / l < r) :
    shapeCast ⟨2, ![r, l]⟩ (pad ⟨1, ![m]⟩ ![0] ![p] ![0] x v hp hu) hc
        (ix2 ⟨k.val / l, hr⟩ ⟨k.val % l, Nat.mod_lt _ hl⟩) = x (ix1 k) :=
  pad_tile_apply' hm x v hp hu hc ⟨k.val / l, hr⟩ ⟨k.val % l, Nat.mod_lt _ hl⟩ k (Nat.div_add_mod' k.val l).symm

/-- Entry `(a, b)` of the tiled padded vector at a position `a * l + b` past the vector's `n` entries is the padding
    value. -/
theorem pad_tile_apply_of_ge {n m r l p : Nat} (hm : m = r * l) (x : (⟨1, ![n]⟩ : Shape).Idx → α) {u : Shape}
    (v : u.Idx → α) (hp : (⟨1, ![n]⟩ : Shape).Pads (![0] : Fin 1 → Nat) ![p] ![0] ⟨1, ![m]⟩) (hu : 0 < u.numel)
    (hc : (⟨1, ![m]⟩ : Shape).ShapeCasts ⟨2, ![r, l]⟩) (a : Fin r) (b : Fin l) (hge : n ≤ a.val * l + b.val) :
    shapeCast ⟨2, ![r, l]⟩ (pad ⟨1, ![m]⟩ ![0] ![p] ![0] x v hp hu) hc (ix2 a b) = v (Shape.Idx.first hu) := by
  have hqm : a.val * l + b.val < m := by rw [hm]; exact pos_lt_mul a.isLt b.isLt
  refine (shapeCast_apply _ hc (ix2 a b) (ix1 (⟨a.val * l + b.val, hqm⟩ : Fin m)) (by
    rw [Shape.rowMajor_val_two, Shape.rowMajor_val_one]
    rfl)).trans ?_
  exact pad_apply_of_not_inside _ _ _ x v hp hu _ (0 : Fin 1) (by
    intro hin
    have e : (a.val * l + b.val - 0) / (0 + 1) < n := hin.2.2
    rw [Nat.sub_zero, Nat.div_one] at e
    omega)

/-! ## A matrix flattened and cut to its first entries -/

/-- Entry `k` of the first `n` entries of the flattened `r × l` matrix is the matrix's entry `(a, b)` when
    `k = a * l + b`. -/
theorem untile_slice_apply' {n m r l : Nat} (hm : m = r * l) (y : (⟨2, ![r, l]⟩ : Shape).Idx → α)
    (hc : (⟨2, ![r, l]⟩ : Shape).ShapeCasts ⟨1, ![m]⟩)
    (hs : (⟨1, ![m]⟩ : Shape).Slices (![0] : Fin 1 → Nat) ⟨1, ![n]⟩) (k : Fin n) (a : Fin r) (b : Fin l)
    (hk : k.val = a.val * l + b.val) :
    extractStridedSlice ⟨1, ![n]⟩ ![0] (shapeCast ⟨1, ![m]⟩ y hc) hs (ix1 k) = y (ix2 a b) := by
  have hkm : k.val < m := by rw [hk, hm]; exact pos_lt_mul a.isLt b.isLt
  refine (extractStridedSlice_apply _ _ hs (ix1 k) (ix1 (⟨k.val, hkm⟩ : Fin m)) (by
    intro c
    have hc0 : c = 0 := Subsingleton.elim _ _
    subst hc0
    show k.val = 0 + k.val
    omega)).trans ?_
  exact shapeCast_apply y hc (ix1 (⟨k.val, hkm⟩ : Fin m)) (ix2 a b) (by
    rw [Shape.rowMajor_val_two, Shape.rowMajor_val_one]
    show a.val * l + b.val = k.val
    exact hk.symm)

/-- Entry `k` of the first `n` entries of the flattened `r × l` matrix is the matrix's entry `(k / l, k % l)`. -/
theorem untile_slice_apply {n m r l : Nat} (hl : 0 < l) (hm : m = r * l) (y : (⟨2, ![r, l]⟩ : Shape).Idx → α)
    (hc : (⟨2, ![r, l]⟩ : Shape).ShapeCasts ⟨1, ![m]⟩)
    (hs : (⟨1, ![m]⟩ : Shape).Slices (![0] : Fin 1 → Nat) ⟨1, ![n]⟩) (k : Fin n) (hr : k.val / l < r) :
    extractStridedSlice ⟨1, ![n]⟩ ![0] (shapeCast ⟨1, ![m]⟩ y hc) hs (ix1 k)
      = y (ix2 ⟨k.val / l, hr⟩ ⟨k.val % l, Nat.mod_lt _ hl⟩) :=
  untile_slice_apply' hm y hc hs k ⟨k.val / l, hr⟩ ⟨k.val % l, Nat.mod_lt _ hl⟩ (Nat.div_add_mod' k.val l).symm

/-! ## Columns, rows and cells -/

/-- Column `c` of an `n × 2` matrix, cut out as an `n × 1` matrix and read as a vector, has the matrix's entry
    `(k, c)` at entry `k`. -/
theorem col_apply {n : Nat} (c : Nat) (hc2 : c < 2) (X : (⟨2, ![n, 2]⟩ : Shape).Idx → α)
    (hs : (⟨2, ![n, 2]⟩ : Shape).Slices (![0, c] : Fin 2 → Nat) ⟨2, ![n, 1]⟩)
    (hcast : (⟨2, ![n, 1]⟩ : Shape).ShapeCasts ⟨1, ![n]⟩) (k : Fin n) :
    shapeCast ⟨1, ![n]⟩ (extractStridedSlice ⟨2, ![n, 1]⟩ ![0, c] X hs) hcast (ix1 k) = X (ix2 k ⟨c, hc2⟩) := by
  refine (shapeCast_apply _ hcast (ix1 k) (ix2 k (0 : Fin 1)) (by
    rw [Shape.rowMajor_val_two, Shape.rowMajor_val_one]
    show k.val * 1 + 0 = k.val
    omega)).trans ?_
  exact slice2_axis1_apply c X hs k (0 : Fin 1) ⟨c, hc2⟩ rfl

/-- A vector read as a `1 × n` row has entry `k` at `(0, k)`. -/
theorem row_apply {n : Nat} (x : (⟨1, ![n]⟩ : Shape).Idx → α) (h : (⟨1, ![n]⟩ : Shape).ShapeCasts ⟨2, ![1, n]⟩)
    (k : Fin n) : shapeCast ⟨2, ![1, n]⟩ x h (ix2 0 k) = x (ix1 k) :=
  shapeCast_a_1a_apply x h 0 k

/-- A one-entry vector read as a `1 × 1` matrix has its entry at `(0, 0)`. -/
theorem cell_apply (x : (⟨1, ![1]⟩ : Shape).Idx → α) (h : (⟨1, ![1]⟩ : Shape).ShapeCasts ⟨2, ![1, 1]⟩) :
    shapeCast ⟨2, ![1, 1]⟩ x h (ix2 0 0) = x (ix1 0) :=
  shapeCast_a_1a_apply x h 0 0

/-- The transpose of an `n × 1` column is the `1 × n` row with the same entries. -/
theorem transpose_col_apply {n : Nat} (x : (⟨2, ![n, 1]⟩ : Shape).Idx → α)
    (h : (⟨2, ![n, 1]⟩ : Shape).Transposes [1, 0] ⟨2, ![1, n]⟩) (k : Fin n) :
    transpose ⟨2, ![1, n]⟩ [1, 0] x h (ix2 0 k) = x (ix2 k 0) :=
  transpose_ix2_apply x h 0 k

end Cert.Lib.PadTile
-- ==== Proof.KernelValue.lean ====
/-
  The kernel program's value is the common form. Node n sits at tile position (n / 128, n % 128); the padded tail
  of a tile array is never read back, because the program cuts the flattened tiles to their first 1,000,000 entries.
  So, entry by entry: the first region's tiles at node p hold (x_p · ν(dout_p)) · w₀ + (y_p · ν(dout_p)) · w₁; the gather
  reads them at each edge's clamped source index; the products with the edge weights are summed at the destinations;
  the second region's tiles at node n hold agg(n) · ν(din_n) + b; and the result row is that, node by node.
-/
import proofs.«136766_j52106543235761_2_alg».proof.Proof.KernelTerms
import proofs.«136766_j52106543235761_2_alg».proof.Proof.Spec
import proofs.«136766_j52106543235761_2_alg».proof.Proof.LibPadTile

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.Terms Cert.Lib.PadTile Cert.Lib.TakeColumn

theorem row_lt (n : Fin 1000000) : n.val / 128 < 8192 := by have := n.isLt; omega

/-- Node `n`'s position in a tile array. -/
abbrev tpos (n : Fin 1000000) : S8192x128.Idx :=
  ix2 ⟨n.val / 128, row_lt n⟩ ⟨n.val % 128, Nat.mod_lt _ (by norm_num)⟩

theorem tile_apply (x : FVec Ideal S1000000 .f32) (n : Fin 1000000) : tile x (tpos n) = x (ix1 n) := by
  unfold tile
  exact pad_tile_apply (by norm_num) (by norm_num) x _ pads_S1000000_S1048576_0485760 h_S_
    shapeCasts_S1048576_S8192x128 n (row_lt n)

theorem untile_apply (y : FVec Ideal S8192x128 .f32) (n : Fin 1000000) : untile y (ix1 n) = y (tpos n) := by
  unfold untile
  exact untile_slice_apply (by norm_num) (by norm_num) y shapeCasts_S8192x128_S1048576 slices_S1048576_S1000000_0 n
    (row_lt n)

theorem col0_apply (X : FVec Ideal S1000000x2 .f32) (n : Fin 1000000) : col0 X (ix1 n) = X (ix2 n 0) := by
  unfold col0
  exact col_apply 0 (by norm_num) X slices_S1000000x2_S1000000x1_0_0 shapeCasts_S1000000x1_S1000000 n

theorem col1_apply (X : FVec Ideal S1000000x2 .f32) (n : Fin 1000000) : col1 X (ix1 n) = X (ix2 n 1) := by
  unfold col1
  exact col_apply 1 (by norm_num) X slices_S1000000x2_S1000000x1_0_1 shapeCasts_S1000000x1_S1000000 n

/-- The first region's tiles at a node are the node's projected feature. -/
theorem featTiles_apply (a0 : FVec Ideal S1000000x2 .f32) (a2 : IVec S32000000 32) (a4 : FVec Ideal S2x1 .f32)
    (p : Fin 1000000) : featTiles a0 a2 a4 (tpos p) = Cert.Spec.feat a0 a4 (degree a2) p := by
  show tile (col0 a0) (tpos p) * Ideal.rsqrt (max (tile (degree a2) (tpos p)) (Ideal.ofBits .f32 0x3F800000#32)) * a4 (ix2 0 0)
      + tile (col1 a0) (tpos p) * Ideal.rsqrt (max (tile (degree a2) (tpos p)) (Ideal.ofBits .f32 0x3F800000#32)) * a4 (ix2 1 0)
    = a0 (ix2 p 0) * Ideal.rsqrt (max (degree a2 (ix1 p)) (Ideal.ofBits .f32 0x3F800000#32)) * a4 (ix2 0 0)
      + a0 (ix2 p 1) * Ideal.rsqrt (max (degree a2 (ix1 p)) (Ideal.ofBits .f32 0x3F800000#32)) * a4 (ix2 1 0)
  rw [tile_apply, tile_apply, tile_apply, col0_apply, col1_apply]

/-- The gathered, weighted features are the edge messages. -/
theorem msg_eq (a0 : FVec Ideal S1000000x2 .f32) (a1 : FVec Ideal S32000000 .f32) (a2 : IVec S32000000 32)
    (a4 : FVec Ideal S2x1 .f32) :
    mulf (Host.gather gather_S1000000_S32000000x1_S32000000_n_0_n_n_0_1_1 (untile (featTiles a0 a2 a4)) (asCol (wrapped a2))) a1
      = Cert.Spec.msg a0 a1 a4 (degree a2) (asCol (wrapped a2)) := by
  funext j
  obtain ⟨e, rfl⟩ : ∃ e : Fin 32000000, j = ix1 e := ⟨j 0, eq_ix1 j⟩
  show Host.gather (flatGather 1000000 32000000 gather_S1000000_S32000000x1_S32000000_n_0_n_n_0_1_1_wf)
        (untile (featTiles a0 a2 a4)) (asCol (wrapped a2)) (ix1 e) * a1 (ix1 e)
      = Cert.Spec.feat a0 a4 (degree a2) (Cert.Spec.pick (asCol (wrapped a2)) e) * a1 (ix1 e)
  rw [gather_flat_apply (by norm_num) _ (untile (featTiles a0 a2 a4)) (asCol (wrapped a2)) e]
  exact congrArg (· * a1 (ix1 e)) ((untile_apply _ _).trans (featTiles_apply a0 a2 a4 _))

/-- The kernel's aggregate is the common form's. -/
theorem agg_eq (a0 : FVec Ideal S1000000x2 .f32) (a1 : FVec Ideal S32000000 .f32) (a2 a3 : IVec S32000000 32)
    (a4 : FVec Ideal S2x1 .f32) :
    aggFlat a0 a1 a2 a3 a4
      = Cert.Spec.agg scatter_S1000000_S32000000x1_S32000000_n_0_0_1_wf a0 a1 a4 (degree a2) (asCol (wrapped a2)) (asCol a3) := by
  unfold aggFlat
  rw [msg_eq]
  rfl

/-- The kernel program's result row is the common form of its arguments. -/
theorem result_eq (a0 : FVec Ideal S1000000x2 .f32) (a1 : FVec Ideal S32000000 .f32) (a2 a3 : IVec S32000000 32)
    (a4 : FVec Ideal S2x1 .f32) (a5 : FVec Ideal S1 .f32) :
    Terms.result a0 a1 a2 a3 a4 a5
      = Cert.Spec.out scatter_S1000000_S32000000x1_S32000000_n_0_0_1_wf a0 a1 a4 a5 (degree a2) (degree a3)
          (asCol (wrapped a2)) (asCol a3) := by
  funext i
  obtain ⟨z, n, rfl⟩ : ∃ (z : Fin 1) (n : Fin 1000000), i = ix2 z n := ⟨i 0, i 1, eq_ix2 i⟩
  obtain rfl : z = 0 := Subsingleton.elim _ _
  unfold Terms.result
  refine (row_apply _ shapeCasts_S1000000_S1x1000000 n).trans ?_
  refine (untile_apply _ n).trans ?_
  show tile (aggFlat a0 a1 a2 a3 a4) (tpos n)
        * Ideal.rsqrt (max (tile (degree a3) (tpos n)) (Ideal.ofBits .f32 0x3F800000#32))
      + shapeCast S1x1 a5 shapeCasts_S1_S1x1 (ix2 0 0)
    = Cert.Spec.agg scatter_S1000000_S32000000x1_S32000000_n_0_0_1_wf a0 a1 a4 (degree a2) (asCol (wrapped a2)) (asCol a3) (ix1 n)
        * Ideal.rsqrt (max (degree a3 (ix1 n)) (Ideal.ofBits .f32 0x3F800000#32))
      + a5 (ix1 0)
  rw [tile_apply, tile_apply, cell_apply, agg_eq]

end Cert.KernelIdeal.KValue

end
-- ==== Proof.RefValue.lean ====
/-
  THE REFERENCE PROGRAM'S RESULT IS THE SPECIFICATION, over the extended reals.

  The reference computes, for a graph with 1,000,000 nodes and 32,000,000 edges, a 1 × 1,000,000 row. Read at
  column n its result term is, one operation at a time:

    * the transpose of a 1,000,000 × 1 column, so the column's entry (n, 0);
    * that entry is  A(n, 0) · ν(din_n) + b,  where ν(d) = rsqrt(max(d, 1)) (the program takes max(1, d): the
      maximum is commutative), din is the in-degree table and b the one bias entry broadcast twice;
    * A is the column scatter-add, from a zero column, of the column of messages M(e, 0) at the destination indices.
      A column scatter-add of column updates agrees row by row with the flat scatter-add of the same updates held
      flat, so A(n, 0) = agg(n) once M(e, 0) = msg(e) for every edge e;
    * M(e, 0) = G(e, 0) · weight_e, and G is the column gather of the projected features P at the wrapped source
      indices: G(e, 0) = P(s_e, 0) with s_e the index read signed and clamped into the node range;
    * P(p, 0) is the contraction over the two feature coordinates of (pos(p, k) · ν(dout_p)) with W(k, 0), that is
      (x_p · ν(dout_p)) · w₀ + (y_p · ν(dout_p)) · w₁ = feat(p).

  Hence the result at (0, n) is  agg(n) · ν(din_n) + b = out(n).
-/
import proofs.«136766_j52106543235761_2_alg».proof.Proof.Gen.ReferenceIdeal.Read
import proofs.«136766_j52106543235761_2_alg».proof.Proof.Spec

noncomputable section

namespace Cert.ReferenceIdeal.RefValue

open Cert.ReferenceIdeal Cert.ReferenceIdeal.Gen Cert.ReferenceIdeal.Read Idealize.ShloMosaic
  Idealize.ShloMosaic.ValueIdx Cert.Lib.TakeColumn
open scoped BigOperators

/-! ## The index maps of the layout operations, at explicit coordinates -/

/-- The transposed row at (0, n) reads the column at (n, 0). -/
theorem idx32 (n : Fin 1000000) : idx_main_v32 (ix2 (0 : Fin 1) n) = ix2 n (0 : Fin 1) := by
  funext a; match a with | ⟨0, _⟩ => rfl | ⟨1, _⟩ => rfl

/-- A table broadcast to a column reads the table at n from (n, 0). -/
theorem idx27 (n : Fin 1000000) : idx_main_v27 (ix2 n (0 : Fin 1)) = ix1 n := by
  funext a; match a with | ⟨0, _⟩ => rfl

/-- The bias, broadcast to a 1 × 1 cell and then down the column, is read at its one entry. -/
theorem idx30_29 (n : Fin 1000000) : idx_main_v29 (idx_main_v30 (ix2 n (0 : Fin 1))) = ix1 (0 : Fin 1) := by
  funext a; match a with | ⟨0, _⟩ => rfl

/-- The contraction's left operand at term k of row p is the entry (p, k). -/
theorem lidx14 (p : Fin 1000000) (k : Fin 2) : lidx_main_v14 (ix2 p (0 : Fin 1)) k = ix2 p k := by
  funext a; match a with | ⟨0, _⟩ => rfl | ⟨1, _⟩ => rfl

/-- The contraction's right operand at term k is the entry (k, 0). -/
theorem ridx14 (p : Fin 1000000) (k : Fin 2) : ridx_main_v14 (ix2 p (0 : Fin 1)) k = ix2 k (0 : Fin 1) := by
  funext a; match a with | ⟨0, _⟩ => rfl | ⟨1, _⟩ => rfl

/-- The normaliser table broadcast to a column and then across the two feature coordinates is read at p from
    (p, k). -/
theorem idx12_11 (p : Fin 1000000) (k : Fin 2) : idx_main_v11 (idx_main_v12 (ix2 p k)) = ix1 p := by
  funext a; match a with | ⟨0, _⟩ => rfl

/-- The edge weights broadcast to a column read the weight of e from (e, 0). -/
theorem idx22 (e : Fin 32000000) : idx_main_v22 (ix2 e (0 : Fin 1)) = ix1 e := by
  funext a; match a with | ⟨0, _⟩ => rfl

/-! ## The two degree normalisers -/

/-- The in-degree normaliser at n: rsqrt of the maximum of 1 and the in-degree. -/
theorem v10_at (x3 : (⟨S32000000, .i32⟩ : BufTy).Contents (Elt Ideal)) (n : Fin 1000000) :
    val_main_v10 (F := Ideal) x3 (ix1 n) = Cert.Spec.norm (val_main_v6 (F := Ideal) x3 (ix1 n)) := by
  rw [val_main_v10_apply, val_main_v9_apply, val_main_call1_v1_apply, val_main_call1_v0_apply, val_main_cst_3_apply]
  simp only [Ideal.hostUnary_rsqrt_def, Ideal.maximumf_def, Ideal.ofBits_def, Cert.Spec.norm]
  rw [max_comm]

/-- The out-degree normaliser at p. -/
theorem v8_at (x2 : (⟨S32000000, .i32⟩ : BufTy).Contents (Elt Ideal)) (p : Fin 1000000) :
    val_main_v8 (F := Ideal) x2 (ix1 p) = Cert.Spec.norm (val_main_v3 (F := Ideal) x2 (ix1 p)) := by
  rw [val_main_v8_apply, val_main_v7_apply, val_main_call0_v1_apply, val_main_call0_v0_apply, val_main_cst_2_apply]
  simp only [Ideal.hostUnary_rsqrt_def, Ideal.maximumf_def, Ideal.ofBits_def, Cert.Spec.norm]
  rw [max_comm]

/-! ## The projected feature -/

/-- The scaled position at (p, k): the position times the out-degree normaliser of p. -/
theorem v13_at (x0 : (⟨S1000000x2, .f32⟩ : BufTy).Contents (Elt Ideal))
    (x2 : (⟨S32000000, .i32⟩ : BufTy).Contents (Elt Ideal)) (p : Fin 1000000) (k : Fin 2) :
    val_main_v13 (F := Ideal) x0 x2 (ix2 p k)
      = x0 (ix2 p k) * Cert.Spec.norm (val_main_v3 (F := Ideal) x2 (ix1 p)) := by
  rw [val_main_v13_apply, val_main_v12_apply, val_main_v11_apply, idx12_11, v8_at]
  rfl

/-- The projection at (p, 0) is the two-term contraction, which is the feature of p. -/
theorem v14_at (x0 : (⟨S1000000x2, .f32⟩ : BufTy).Contents (Elt Ideal))
    (x2 : (⟨S32000000, .i32⟩ : BufTy).Contents (Elt Ideal)) (x4 : (⟨S2x1, .f32⟩ : BufTy).Contents (Elt Ideal))
    (p : Fin 1000000) :
    val_main_v14 (F := Ideal) x0 x2 x4 (ix2 p (0 : Fin 1))
      = Cert.Spec.feat x0 x4 (val_main_v3 (F := Ideal) x2) p := by
  rw [val_main_v14_apply, Fin.sum_univ_two, lidx14, lidx14, ridx14, ridx14, v13_at, v13_at]
  rfl

/-! ## The messages and their aggregate -/

/-- The message column at (e, 0): the feature gathered at the edge's clamped source index, times the edge weight. -/
theorem v23_at (x0 : (⟨S1000000x2, .f32⟩ : BufTy).Contents (Elt Ideal))
    (x1 : (⟨S32000000, .f32⟩ : BufTy).Contents (Elt Ideal)) (x2 : (⟨S32000000, .i32⟩ : BufTy).Contents (Elt Ideal))
    (x4 : (⟨S2x1, .f32⟩ : BufTy).Contents (Elt Ideal)) (e : Fin 32000000) :
    val_main_v23 (F := Ideal) x0 x1 x2 x4 (ix2 e (0 : Fin 1))
      = Cert.Spec.msg x0 x1 x4 (val_main_v3 (F := Ideal) x2) (val_main_v20 (F := Ideal) x2) (ix1 e) := by
  have hg : val_main_v21 (F := Ideal) x0 x2 x4 (ix2 e (0 : Fin 1))
      = val_main_v14 (F := Ideal) x0 x2 x4
          (ix2 (Cert.Spec.pick (val_main_v20 (F := Ideal) x2) e) (0 : Fin 1)) :=
    gather_col_apply (by norm_num) gather_S1000000x1_S32000000x1_S32000000x1_1_0_n_n_0_1_11_wf
      (val_main_v14 (F := Ideal) x0 x2 x4) (val_main_v20 (F := Ideal) x2) e
  rw [val_main_v23_apply, val_main_v22_apply, idx22, hg, v14_at]
  rfl

/-- The aggregate column at (n, 0) is the flat aggregate at n: the zero tables agree, the update columns are the
    messages, and a column scatter-add agrees row by row with the flat one. -/
theorem v26_at (x0 : (⟨S1000000x2, .f32⟩ : BufTy).Contents (Elt Ideal))
    (x1 : (⟨S32000000, .f32⟩ : BufTy).Contents (Elt Ideal)) (x2 x3 : (⟨S32000000, .i32⟩ : BufTy).Contents (Elt Ideal))
    (x4 : (⟨S2x1, .f32⟩ : BufTy).Contents (Elt Ideal)) (n : Fin 1000000) :
    val_main_v26 (F := Ideal) x0 x1 x2 x3 x4 (ix2 n (0 : Fin 1))
      = Cert.Spec.agg scatter_S1000000_S32000000x1_S32000000_n_0_0_1_wf x0 x1 x4 (val_main_v3 (F := Ideal) x2)
          (val_main_v20 (F := Ideal) x2) (val_main_v25 (F := Ideal) x3) (ix1 n) :=
  host_scatterAdd_col_eq_flat scatter_S1000000x1_S32000000x1_S32000000x1_1_0_0_1_wf
    scatter_S1000000_S32000000x1_S32000000_n_0_0_1_wf (val_main_v24 (F := Ideal))
    (fun _ => Ideal.ofBits .f32 0x00000000#32) (val_main_v23 (F := Ideal) x0 x1 x2 x4)
    (Cert.Spec.msg x0 x1 x4 (val_main_v3 (F := Ideal) x2) (val_main_v20 (F := Ideal) x2))
    (val_main_v25 (F := Ideal) x3)
    (fun m => by rw [val_main_v24_apply, val_main_cst_5_apply]; rfl)
    (fun e => v23_at x0 x1 x2 x4 e) n

/-! ## The result -/

/-- The column before the transpose at (n, 0): the aggregate times the in-degree normaliser, plus the bias. -/
theorem v31_at (x0 : (⟨S1000000x2, .f32⟩ : BufTy).Contents (Elt Ideal))
    (x1 : (⟨S32000000, .f32⟩ : BufTy).Contents (Elt Ideal)) (x2 x3 : (⟨S32000000, .i32⟩ : BufTy).Contents (Elt Ideal))
    (x4 : (⟨S2x1, .f32⟩ : BufTy).Contents (Elt Ideal)) (x5 : (⟨S1, .f32⟩ : BufTy).Contents (Elt Ideal))
    (n : Fin 1000000) :
    val_main_v31 (F := Ideal) x0 x1 x2 x3 x4 x5 (ix2 n (0 : Fin 1))
      = val_main_v26 (F := Ideal) x0 x1 x2 x3 x4 (ix2 n (0 : Fin 1))
          * Cert.Spec.norm (val_main_v6 (F := Ideal) x3 (ix1 n)) + x5 (ix1 (0 : Fin 1)) := by
  rw [val_main_v31_apply, val_main_v28_apply, val_main_v30_apply, val_main_v29_apply, val_main_v27_apply, idx27,
    idx30_29, v10_at]
  rfl

/-- THE REFERENCE'S RESULT IS THE SPECIFIED ROW, with the two degree tables the reference's own degree scatter-adds
    (of the source and of the destination indices), the source index column the wrapped one and the destination index
    column the given one. -/
theorem result_eq (x0 : (⟨S1000000x2, .f32⟩ : BufTy).Contents (Elt Ideal))
    (x1 : (⟨S32000000, .f32⟩ : BufTy).Contents (Elt Ideal)) (x2 x3 : (⟨S32000000, .i32⟩ : BufTy).Contents (Elt Ideal))
    (x4 : (⟨S2x1, .f32⟩ : BufTy).Contents (Elt Ideal)) (x5 : (⟨S1, .f32⟩ : BufTy).Contents (Elt Ideal)) :
    val_main_v32 (F := Ideal) x0 x1 x2 x3 x4 x5
      = Cert.Spec.out scatter_S1000000_S32000000x1_S32000000_n_0_0_1_wf x0 x1 x4 x5
          (val_main_v3 (F := Ideal) x2) (val_main_v6 (F := Ideal) x3) (val_main_v20 (F := Ideal) x2)
          (val_main_v25 (F := Ideal) x3) := by
  funext i
  obtain ⟨a, n, rfl⟩ : ∃ (a : Fin 1) (n : Fin 1000000), i = ix2 a n := ⟨i 0, i 1, eq_ix2 i⟩
  obtain rfl : a = 0 := Subsingleton.elim _ _
  rw [val_main_v32_apply, idx32, v31_at, v26_at]
  rfl

end Cert.ReferenceIdeal.RefValue

end
-- ==== Proof.Bridge.lean ====
/-
  The two programs spell the degree arrays and the two index columns by the same operations: ones summed at the
  index column over a table of zeros, and the source index wrapped once before it is made a column. So the common
  form taken at the reference's spelling of them is the common form taken at the kernel program's.
-/
import proofs.«136766_j52106543235761_2_alg».proof.Proof.KernelValue
import proofs.«136766_j52106543235761_2_alg».proof.Proof.Gen.ReferenceIdeal.Read
import proofs.«136766_j52106543235761_2_alg».proof.Proof.Spec

noncomputable section

namespace Cert.Bridge

open Idealize.ShloMosaic

/-- The common form at the reference's degree arrays and index columns is the common form at the kernel's. -/
theorem link (x0 : FVec Ideal ⟨2, ![1000000, 2]⟩ .f32) (x1 : FVec Ideal ⟨1, ![32000000]⟩ .f32)
    (x2 x3 : IVec ⟨1, ![32000000]⟩ 32) (x4 : FVec Ideal ⟨2, ![2, 1]⟩ .f32) (x5 : FVec Ideal ⟨1, ![1]⟩ .f32) :
    Cert.Spec.out Cert.ReferenceIdeal.Gen.scatter_S1000000_S32000000x1_S32000000_n_0_0_1_wf x0 x1 x4 x5
        (Cert.ReferenceIdeal.Read.val_main_v3 (F := Ideal) x2) (Cert.ReferenceIdeal.Read.val_main_v6 (F := Ideal) x3)
        (Cert.ReferenceIdeal.Read.val_main_v20 (F := Ideal) x2) (Cert.ReferenceIdeal.Read.val_main_v25 (F := Ideal) x3)
      = Cert.Spec.out Cert.KernelIdeal.Gen.scatter_S1000000_S32000000x1_S32000000_n_0_0_1_wf x0 x1 x4 x5
        (Cert.KernelIdeal.Terms.degree x2) (Cert.KernelIdeal.Terms.degree x3)
        (Cert.KernelIdeal.Terms.asCol (Cert.KernelIdeal.Terms.wrapped x2)) (Cert.KernelIdeal.Terms.asCol x3) := rfl

end Cert.Bridge

end
-- ==== Proof.lean ====
/- The proof of `Cert.Claim`: a two-stage graph convolution (degree-normalised projection of the node positions,
   gathered along the edges, weighted, summed at the destinations, degree-normalised again, plus a bias) whose two
   pointwise stages run as kernel regions over 8192 × 128 tiles, against the same computation written with whole arrays.
   The frames of the two printed kernel programs are the generated frame certificates; the reference's frame is its
   generated run with the result dropped. The idealization rewrote nothing, so `preserves` has nothing to state.
   `algebraic`: the kernel program's run ends with its result buffer at the last boundary's contents (Proof/KernelRun),
   which read back through the host stretches (Proof/HostEntry, HostMiddle) and the two regions (Proof/Region0, Region1),
   boundary by boundary (Proof/KernelStages), is the term `Terms.result` of the arguments, and that is the common form
   `Spec.out` (Proof/KernelValue); the reference's run ends
   at its composed term, which is the same common form (Proof/RefValue) of the same degree arrays and index columns
   (Proof/Bridge). No step uses that the inputs are finite: both sides are one expression over the extended reals. -/
import proofs.«136766_j52106543235761_2_alg».proof.Defs
import proofs.«136766_j52106543235761_2_alg».proof.Proof.Gen.Kernel
import proofs.«136766_j52106543235761_2_alg».proof.Proof.Gen.Kernel.Skeleton
import proofs.«136766_j52106543235761_2_alg».proof.Proof.Gen.Kernel.Launch
import proofs.«136766_j52106543235761_2_alg».proof.Proof.Gen.Kernel.Points
import proofs.«136766_j52106543235761_2_alg».proof.Proof.Gen.Kernel.Frame
import proofs.«136766_j52106543235761_2_alg».proof.Proof.Gen.KernelIdeal
import proofs.«136766_j52106543235761_2_alg».proof.Proof.Gen.KernelIdeal.Skeleton
import proofs.«136766_j52106543235761_2_alg».proof.Proof.Gen.KernelIdeal.Launch
import proofs.«136766_j52106543235761_2_alg».proof.Proof.Gen.KernelIdeal.Points
import proofs.«136766_j52106543235761_2_alg».proof.Proof.Gen.KernelIdeal.Frame
import proofs.«136766_j52106543235761_2_alg».proof.Proof.Gen.ReferenceIdeal
import proofs.«136766_j52106543235761_2_alg».proof.Proof.Gen.Pre_finite_inputs
import proofs.«136766_j52106543235761_2_alg».proof.Proof.Gen.ReferenceIdeal.Run
import proofs.«136766_j52106543235761_2_alg».proof.Proof.Gen.ReferenceIdeal.Read
import proofs.«136766_j52106543235761_2_alg».proof.Proof.KernelRun
import proofs.«136766_j52106543235761_2_alg».proof.Proof.KernelStages
import proofs.«136766_j52106543235761_2_alg».proof.Proof.KernelValue
import proofs.«136766_j52106543235761_2_alg».proof.Proof.RefValue
import proofs.«136766_j52106543235761_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the common form of the arguments in their result
    buffers. -/
theorem algebraic : Cert.algebraic_KernelIdeal_ReferenceIdeal := by
  intro m ρ m' ρ' _ hagree
  refine ⟨fun c => Cert.KernelIdeal.Terms.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Stages.W15_v39 m ρ c), (h c).2⟩)
      (Cert.KernelIdeal.ValueRun.run (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2]
    exact ((Cert.ReferenceIdeal.Read.val_main_v32_eq _ _ _ _ _ _).trans
      (Cert.ReferenceIdeal.RefValue.result_eq _ _ _ _ _ _)).trans
      ((Cert.Bridge.link _ _ _ _ _ _).trans (Cert.KernelIdeal.KValue.result_eq _ _ _ _ _ _).symm)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
